-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 22
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S8192x512, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S8192x1, .i32⟩
  | .hbm, ⟨16, _⟩ => ⟨S1x8192, .i32⟩
  | .hbm, ⟨17, _⟩ => ⟨S8192x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x1, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  natLt_1_32 : 1 < 32
  reduces_S1024x512_S1024 : S1024x512.Reduces [1] S1024
  shapeCasts_S1024_S1024x1 : S1024.ShapeCasts S1024x1
  reducesTo_S8192x1_S_d0_1 : S8192x1.ReducesTo [0, 1] S_
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v3) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S8192x1 : Shape := ⟨2, ![8192, 1]⟩
abbrev S512x8192 : Shape := ⟨2, ![512, 8192]⟩
abbrev S8192x8192 : Shape := ⟨2, ![8192, 8192]⟩
abbrev S1x8192 : Shape := ⟨2, ![1, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S512x8192, .f32⟩
  | .hbm, ⟨13, _⟩ => ⟨S8192x8192, .f32⟩
  | .hbm, ⟨14, _⟩ => ⟨S8192x1, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  transposes_S8192x512_S512x8192_1_0 : S8192x512.Transposes [1, 0] S512x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KRuns.lean ====
/-
  The kernel body at one grid point, run symbolically on whole staging buffers.

  The grid is 8 x 16: coordinate 0 picks a block of 1024 rows, coordinate 1 a block of 512 columns of the
  8192 x 8192 pair matrix. The body keeps, in the output block (1024 x 1), the running row sums of the masked
  hinge terms over the column blocks met so far. Two control cases: at column block 0 the output block is first
  overwritten with zeros and then the block's partial row sums are added (the reset case); at every other
  column block the partial row sums are added to what the previous point left (the accumulating case). In both
  the six input buffers are only read. Each case is stated as: from the inputs at given contents (and the output
  buffer at anything, respectively at given contents), the body runs to the inputs unchanged and the output
  buffer at a list of whole-block stores.
-/
import proofs.«158900_j3702261809485_1_alg».proof.Proof.Gen.Kernel.Launch
import proofs.«158900_j3702261809485_1_alg».proof.Proof.Gen.Kernel.Skeleton
import proofs.«158900_j3702261809485_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the column-block coordinate is zero. -/
abbrev resetCond (i : grid0.Coords) : Prop :=
  (Scalar.cmpi .ne (Scalar.extui (Scalar.cmpi .eq (BitVec.ofNat 32 (i 1).val) 0#32)) 0#32) = 1#1

/-- Over the 128 points in row-major order it holds exactly at the multiples of 16. -/
theorem resetCond_iff : ∀ t : Fin cfg0.N, resetCond (grid0.coords t) ↔ t.val % 16 = 0 :=
  (by decide +kernel : ∀ t : Fin grid0.N, resetCond (grid0.coords t) ↔ t.val % 16 = 0)

set_option maxHeartbeats 1000000 in
/-- The reset case: the output buffer, at anything, ends at the stores the body made (zeros, then zeros plus the
    block's partial row sums); the inputs are as they were. -/
noncomputable def runReset (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : resetCond i)
    (x0 : Vec F S1024x512 .bf16) (x1 : Vec F S512x512 .bf16) (x2 : Vec F S1024x1 .f32) (x3 : Vec F S1x512 .f32) (x4 : Vec F S1024x1 .i32) (x5 : Vec F S1x512 .i32) :
    { L : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L)) -∗ K ⟨⟩))
          ⊢ wp frame (wpE (defs₀ (F := F)) Variants.none c none) E (cc0__kernel i a2 h2 a3 h3 a4 h4 a5 h5 a6 h6 a7 h7 a8 h8) K } := by
  refine ⟨?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := h2.eq_unread hf0
    obtain rfl := h3.eq_unread hf1
    obtain rfl := h4.eq_unread hf2
    obtain rfl := h5.eq_unread hf3
    obtain rfl := h6.eq_unread hf4
    obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H6

set_option maxHeartbeats 1000000 in
/-- The accumulating case: the output buffer, at the contents `xo` the previous point left, ends at the one store the
    body made (`xo` plus the block's partial row sums); the inputs are as they were. -/
noncomputable def runAcc (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : ¬resetCond i)
    (x0 : Vec F S1024x512 .bf16) (x1 : Vec F S512x512 .bf16) (x2 : Vec F S1024x1 .f32) (x3 : Vec F S1x512 .f32) (x4 : Vec F S1024x1 .i32) (x5 : Vec F S1x512 .i32) (xo : Vec F S1024x1 .f32) :
    { L : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L)) -∗ K ⟨⟩))
          ⊢ wp frame (wpE (defs₀ (F := F)) Variants.none c none) E (cc0__kernel i a2 h2 a3 h3 a4 h4 a5 h5 a6 h6 a7 h7 a8 h8) K } := by
  refine ⟨?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0
    obtain rfl := h3.eq_unread hf1
    obtain rfl := h4.eq_unread hf2
    obtain rfl := h5.eq_unread hf3
    obtain rfl := h6.eq_unread hf4
    obtain rfl := h7.eq_unread hf5
    obtain rfl := h8.eq_unread hf6
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H6

end Cert.Kernel.Hand

end
-- ==== Proof.KFrame.lean ====
/-
  What the output block holds after each grid point, the pipeline's proof data, and the body obligation.

  The points run in row-major order over the 8 x 16 grid: point t is row block t / 16, column block t % 16. An
  input window's staging buffer holds, whenever the body runs, the window's block of its array (rows
  1024 (t / 16) … for the row-side windows, columns 512 (t % 16) … for the column-side ones), whether the pipeline
  fetched it at this point or kept it from the point before. The output window's staging buffer is written back
  only at the last column block of a row block, so between two write-backs it carries the running row sums: at a
  point with t % 16 = 0 the body resets it, at every other point the body adds to what the previous point left.
  `outsAt` is that recursion; the proof data names it as what the body leaves in the output window.
-/
import proofs.«158900_j3702261809485_1_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation of the host operations; -/
abbrev V₀ (c : Dev nD) : Valuation τ sig (Elt F) := fun b => m ((c : Dev nD), b)
/-- and when the region is entered: the normalisation, the row norms and the reshapes have run. -/
abbrev Vh (c : Dev nD) : Valuation τ sig (Elt F) := StableHlo.after hostOps0_1 (StableHlo.after hostOps0 (V₀ m c))
abbrev V (c : Dev nD) (b : Ref sig .tc) : Buf (Elt F) ((c : Thread nD τ).loc b) := Vh m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

abbrev VO : View sig .tc .vmem S1024x1 .f32 := (Memref.whole cc0_stg6_0 : Memref sig .tc .vmem S1024x1 .f32).view
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)

/-! ## What each case leaves in the output block -/

theorem coverReset (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : resetCond i) (x0 : Vec F S1024x512 .bf16) (x1 : Vec F S512x512 .bf16) (x2 : Vec F S1024x1 .f32) (x3 : Vec F S1x512 .f32) (x4 : Vec F S1024x1 .i32) (x5 : Vec F S1x512 .i32) (y : S1024x1.Idx) :
    ∃ pc ∈ (runReset c i a2 h2 a3 h3 a4 h4 a5 h5 a6 h6 a7 h7 a8 h8 hc x0 x1 x2 x3 x4 x5).1, y ∈ pc.1.set :=
  View.cover_of_tiledL (runReset c i a2 h2 a3 h3 a4 h4 a5 h5 a6 h6 a7 h7 a8 h8 hc x0 x1 x2 x3 x4 x5).1 S1024x1.size (by sl_kernel_rfl) y

/-- The reset case's stores read back. -/
def outReset (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : resetCond i) (x0 : Vec F S1024x512 .bf16) (x1 : Vec F S512x512 .bf16) (x2 : Vec F S1024x1 .f32) (x3 : Vec F S1x512 .f32) (x4 : Vec F S1024x1 .i32) (x5 : Vec F S1x512 .i32) : Vec F S1024x1 .f32 :=
  VO.read (Elt F) (VO.writes (Elt F) VO.junk (runReset c i a2 h2 a3 h3 a4 h4 a5 h5 a6 h6 a7 h7 a8 h8 hc x0 x1 x2 x3 x4 x5).1)

theorem coverAcc (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : ¬resetCond i) (x0 : Vec F S1024x512 .bf16) (x1 : Vec F S512x512 .bf16) (x2 : Vec F S1024x1 .f32) (x3 : Vec F S1x512 .f32) (x4 : Vec F S1024x1 .i32) (x5 : Vec F S1x512 .i32) (xo : Vec F S1024x1 .f32) (y : S1024x1.Idx) :
    ∃ pc ∈ (runAcc c i a2 h2 a3 h3 a4 h4 a5 h5 a6 h6 a7 h7 a8 h8 hc x0 x1 x2 x3 x4 x5 xo).1, y ∈ pc.1.set :=
  View.cover_of_tiledL (runAcc c i a2 h2 a3 h3 a4 h4 a5 h5 a6 h6 a7 h7 a8 h8 hc x0 x1 x2 x3 x4 x5 xo).1 S1024x1.size (by sl_kernel_rfl) y

/-- The accumulating case's store read back. -/
def outAcc (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : ¬resetCond i) (x0 : Vec F S1024x512 .bf16) (x1 : Vec F S512x512 .bf16) (x2 : Vec F S1024x1 .f32) (x3 : Vec F S1x512 .f32) (x4 : Vec F S1024x1 .i32) (x5 : Vec F S1x512 .i32) (xo : Vec F S1024x1 .f32) : Vec F S1024x1 .f32 :=
  VO.read (Elt F) (VO.writes (Elt F) VO.junk (runAcc c i a2 h2 a3 h3 a4 h4 a5 h5 a6 h6 a7 h7 a8 h8 hc x0 x1 x2 x3 x4 x5 xo).1)

/-! ## The running row sums, point by point -/

/-- What the output window's staging buffer holds after the body at position `n`. -/
def outsAt (c : Dev nD) : (n : ℕ) → n < cfg0.N → Vec F S1024x1 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((resetCond_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 16 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((resetCond_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((resetCond_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

theorem outsAt_reset (c : Dev nD) (t : Fin cfg0.N) (h0 : t.val % 16 = 0) :
    outsAt m c t.val t.isLt = outReset c (grid0.coords t) (ms0 t) (hs0 t) (ms1 t) (hs1 t) (ms2 t) (hs2 t) (ms3 t) (hs3 t) (ms4 t) (hs4 t) (ms5 t) (hs5 t) (ms6 t) (hs6 t) ((resetCond_iff t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem outsAt_acc (c : Dev nD) (t : Fin cfg0.N) (h0 : ¬t.val % 16 = 0) :
    outsAt m c t.val t.isLt = outAcc c (grid0.coords t) (ms0 t) (hs0 t) (ms1 t) (hs1 t) (ms2 t) (hs2 t) (ms3 t) (hs3 t) (ms4 t) (hs4 t) (ms5 t) (hs5 t) (ms6 t) (hs6 t) (fun h => h0 ((resetCond_iff t).mp h)) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The normalised matrix is handed to the kernel twice (row side and column side): each of the two windows on
    it holds one half of the array's share. Every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := BI.emp
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = (outsAt m c t.val t.isLt) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-- Away from the first column block the output window's buffer holds what the body left at the point before: it
    was not written back in between. -/
theorem before_out_acc (c : Dev nD) (t : Fin cfg0.N) (h0 : ¬t.val % 16 = 0) (d) :
    (dats m 0 c).before 6 t d = (outsAt m c (t.val - 1) (Nat.lt_of_le_of_lt (Nat.sub_le _ _) t.isLt)) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  have hN : t.val < 128 := lt_of_lt_of_eq t.isLt (show cfg0.N = 128 from N_0)
  by_cases h0 : t.val % 16 = 0
  · rw [outsAt_reset m c t h0]
    unfold outReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((resetCond_iff t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _)
  · rw [outsAt_acc m c t h0]
    simp only [before_out_acc m c t h0]
    unfold outAcc
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAcc c (grid0.coords t) _ _ _ _ _ _ _ _ _ _ _ _ _ _ (fun h => h0 ((resetCond_iff t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverAcc c _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
/-
  The whole run of @main: host operations, the kernel region, host operations.

  @main is the row norms (a called function, five operations), ten more host operations (the normalised matrix,
  its squared row norms, the reshapes of the norms and of the labels), the kernel region over the 8 x 16 grid, and
  four host operations (the sum of the 8192 row sums and its scaling). It is cut into those four segments. The
  normalised matrix is read by two windows of the kernel; at the region's entry its buffer's share is halved
  between them. The region leaves the row-sum array at what the pipeline's account computes from the proof data;
  the last segment runs on that array and the four scalar buffers it writes.
-/
import proofs.«158900_j3702261809485_1_alg».proof.Proof.KFrame
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none
/-- What rides beside the buffers: the core owes no one anything. -/
abbrev R (c : Dev nD) : sProp 𝕄 := iprop(∃ W, owes (c : Thread nD τ) (0 : CellTallies nD τ sig Unit) W)

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-! ## The two host stretches before the region -/

def segA : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    fresh0 (V₀ m) R

def segB : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    fresh0_1 (fun c => StableHlo.after hostOps0 (V₀ m c)) R

/-! ## Arguments are written by no host operation -/

theorem not_written0 (b : Ref sig .tc) (hb : b ≠ main_call0_v0 ∧ b ≠ main_call0_cst ∧ b ≠ main_call0_v1 ∧ b ≠ main_call0_v2 ∧ b ≠ main_v0) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.TRef.binary, StableHlo.TRef.unary, StableHlo.TRef.nullary, StableHlo.TRef.of, StableHlo.unary_writes, StableHlo.binary_writes, StableHlo.nullary_writes, Finset.mem_singleton] <;>
    exact StableHlo.devRef_ne_of_ne ‹_›

theorem not_written0_1 (b : Ref sig .tc) (hb : b ≠ main_v1 ∧ b ≠ main_v2 ∧ b ≠ main_v3 ∧ b ≠ main_v4 ∧ b ≠ main_cst ∧ b ≠ main_v5 ∧ b ≠ main_v6 ∧ b ≠ main_v7 ∧ b ≠ main_v8 ∧ b ≠ main_v9) :
    ∀ op ∈ (hostOps0_1 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem V_arg0 (c : Dev nD) : V m c main_arg0 = m ((c : Thread nD τ).loc main_arg0) :=
  (StableHlo.after_of_forall_not_mem (b := Proc.devRef .tc main_arg0) hostOps0_1 _ (not_written0_1 main_arg0 (by decide))).trans
    (StableHlo.after_of_forall_not_mem (b := Proc.devRef .tc main_arg0) hostOps0 (V₀ m c) (not_written0 main_arg0 (by decide)))

theorem V_arg1 (c : Dev nD) : V m c main_arg1 = m ((c : Thread nD τ).loc main_arg1) :=
  (StableHlo.after_of_forall_not_mem (b := Proc.devRef .tc main_arg1) hostOps0_1 _ (not_written0_1 main_arg1 (by decide))).trans
    (StableHlo.after_of_forall_not_mem (b := Proc.devRef .tc main_arg1) hostOps0 (V₀ m c) (not_written0 main_arg1 (by decide)))

/-! ## The region's entry: the arrays dealt to the windows -/

theorem sepL6 {M : Type _} [URA M] {I : Type _} (a b c d e f : I) (Φ : I → sProp M) :
    bigSepL [a, b, c, d, e, f] Φ = iprop(Φ a ∗ Φ b ∗ Φ c ∗ Φ d ∗ Φ e ∗ Φ f) := rfl

section EntrySplit

/-- Each window's array, as the pipeline's account holds it, is its buffer, whole, at the window's share. -/
theorem arr_in0 (c : Dev nD) (f : Buf (Elt F) ((cfg0.win 0).arr.view.loc (c : Thread nD τ))) :
    ((cfg0.win 0).arr.view.loc (c : Thread nD τ) ↦[(cfg0.win 0).arr.view.set]{(dats m 0 c).share 0} f : sProp 𝕄)
      = (((c : Thread nD τ).loc main_v3) ↦{fullShare.left} f) := by
  rw [(arr_whole0 0).set_eq_univ]; rfl
theorem arr_in1 (c : Dev nD) (f : Buf (Elt F) ((cfg0.win 1).arr.view.loc (c : Thread nD τ))) :
    ((cfg0.win 1).arr.view.loc (c : Thread nD τ) ↦[(cfg0.win 1).arr.view.set]{(dats m 0 c).share 1} f : sProp 𝕄)
      = (((c : Thread nD τ).loc main_v3) ↦{fullShare.right} f) := by
  rw [(arr_whole0 1).set_eq_univ]; rfl
theorem arr_in2 (c : Dev nD) (f : Buf (Elt F) ((cfg0.win 2).arr.view.loc (c : Thread nD τ))) :
    ((cfg0.win 2).arr.view.loc (c : Thread nD τ) ↦[(cfg0.win 2).arr.view.set]{(dats m 0 c).share 2} f : sProp 𝕄)
      = (((c : Thread nD τ).loc main_v6) ↦{fullShare} f) := by
  rw [(arr_whole0 2).set_eq_univ]; rfl
theorem arr_in3 (c : Dev nD) (f : Buf (Elt F) ((cfg0.win 3).arr.view.loc (c : Thread nD τ))) :
    ((cfg0.win 3).arr.view.loc (c : Thread nD τ) ↦[(cfg0.win 3).arr.view.set]{(dats m 0 c).share 3} f : sProp 𝕄)
      = (((c : Thread nD τ).loc main_v7) ↦{fullShare} f) := by
  rw [(arr_whole0 3).set_eq_univ]; rfl
theorem arr_in4 (c : Dev nD) (f : Buf (Elt F) ((cfg0.win 4).arr.view.loc (c : Thread nD τ))) :
    ((cfg0.win 4).arr.view.loc (c : Thread nD τ) ↦[(cfg0.win 4).arr.view.set]{(dats m 0 c).share 4} f : sProp 𝕄)
      = (((c : Thread nD τ).loc main_v8) ↦{fullShare} f) := by
  rw [(arr_whole0 4).set_eq_univ]; rfl
theorem arr_in5 (c : Dev nD) (f : Buf (Elt F) ((cfg0.win 5).arr.view.loc (c : Thread nD τ))) :
    ((cfg0.win 5).arr.view.loc (c : Thread nD τ) ↦[(cfg0.win 5).arr.view.set]{(dats m 0 c).share 5} f : sProp 𝕄)
      = (((c : Thread nD τ).loc main_v9) ↦{fullShare} f) := by
  rw [(arr_whole0 5).set_eq_univ]; rfl
theorem arr_out_eq (c : Dev nD) (f : Buf (Elt F) ((cfg0.win 6).arr.view.loc (c : Thread nD τ))) :
    ((cfg0.win 6).arr.view.loc (c : Thread nD τ) ↦[(cfg0.win 6).arr.view.set]{(dats m 0 c).share 6} f : sProp 𝕄)
      = (((c : Thread nD τ).loc main_v10) ↦{fullShare} f) := by
  rw [(arr_whole0 6).set_eq_univ]; rfl

/-- The unscoped buffers at the region's entry are the windows' arrays — the normalised matrix's share halved
    between its two windows — and the buffers no window stages. -/
theorem entry_split (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c)]
  refine sep_mono ?_ .rfl
  unfold Pipeline.arrBufs Dat.arrays
  rw [bigSep_eq_bigSepL_of_eq [main_v3, main_v6, main_v7, main_v8, main_v9, main_v10] (by decide) (by decide), sepL6, bigSep_W0]
  have hs : (((c : Thread nD τ).loc main_v3) ↦{fullShare} V m c main_v3 : sProp 𝕄)
      ⊢ iprop((((c : Thread nD τ).loc main_v3) ↦{fullShare.left} V m c main_v3) ∗ (((c : Thread nD τ).loc main_v3) ↦{fullShare.right} V m c main_v3)) :=
    (pointsTo_share (PosShare.mem_left_op_right fullShare)).1
  have h0 : ∀ w, (dats m 0 c).arrAt w 0 = V m c (Pipeline.arrRef spec0 w) := fun _ => rfl
  beta_reduce
  rw [arr_in0, arr_in1, arr_in2, arr_in3, arr_in4, arr_in5, arr_out_eq]
  simp only [h0]
  refine (sep_mono hs .rfl).trans ?_
  iintro ⟨⟨H3a, H3b⟩, H6, H7, H8, H9, H10⟩
  isplitl [H3a]; · iexact H3a
  isplitl [H3b]; · iexact H3b
  isplitl [H6]; · iexact H6
  isplitl [H7]; · iexact H7
  isplitl [H8]; · iexact H8
  isplitl [H9]; · iexact H9
  iexact H10

end EntrySplit

/-! ## The region and the tail -/

/-- The buffers the four operations after the region touch. -/
abbrev tailRefs : List (Ref sig .tc) := [main_v10, main_cst_0, main_v11, main_cst_1, main_v12]
def Stail : Finset (DevRef τ sig) := (tailRefs.map (Proc.devRef (τ := τ) .tc)).toFinset

/-- The buffers as the tail finds them: the row-sum array at what the pipeline wrote back, the rest as before. -/
def Vt (c : Dev nD) : Valuation τ sig (Elt F) :=
  Function.update (Vh m c) (Proc.devRef .tc main_v10) ((dats m 0 c).arrAt 6 cfg0.N)

theorem subC : ∀ op ∈ (hostOps1 (F := F)), op.bufs ⊆ Stail := by
  intro op hop b hb
  simp only [List.mem_cons, List.mem_nil_iff, or_false] at hop
  unfold Stail
  rw [List.mem_toFinset]
  rcases hop with rfl | rfl | rfl | rfl <;>
    simp only [StableHlo.nullary_bufs, StableHlo.binary_bufs, Finset.mem_insert, Finset.mem_singleton] at hb <;>
    simp only [tailRefs, List.map, List.mem_cons, List.mem_nil_iff, or_false] <;> tauto

/-- What is left between the region and the tail: the arrays at their final contents and the buffers that bypassed
    the region. -/
abbrev Tmid (c : Dev nD) : sProp 𝕄 :=
  iprop((dats m 0 c).arrays ((dats m 0 c).arrAt · cfg0.N) ∗ Pipeline.unscopedRest spec0 c (V m c))

/-- The arguments, as the region found them. -/
abbrev Args (c : Dev nD) : sProp 𝕄 :=
  iprop((((c : Thread nD τ).loc main_arg0) ↦{fullShare} V m c main_arg0) ∗ (((c : Thread nD τ).loc main_arg1) ↦{fullShare} V m c main_arg1))

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vh m c) ∗ R c)
  post c := iprop(Tmid m c ∗ R c)
  X c := BI.emp
  Y c := BI.emp
  Z c := Pipeline.unscopedRest spec0 c (V m c)
  hentry c := by
    rw [show StableHlo.held (c : Thread nD τ) (Pipeline.ucRefs τ sig) (Vh m c) = unscopedBufs c (V m c) from (Pipeline.unscopedBufs_held c _).symm]
    iintro ⟨⟨Hh, HO⟩, -, -⟩
    ihave H := (entry_split m c) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = BI.emp from rfl]
    iintro -; iempintro
  hout c := by
    unfold Pipeline.ownSems0
    rw [Finset.univ_eq_empty, BI.bigSep_empty, scopedRest0_eq]
    iintro -
    isplitr; · iempintro
    isplitr <;> iempintro
  hexit c := by
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

def segC : Pipeline.HostSeg (Name := ℕ) (U := UR sig nD τ) (pcfgs (F := F)) defs₀ 𝒱₀ L lv :=
  Pipeline.HostSeg.ofOps _ _ _ _ _ Stail hostOps1 subC fresh1 (Vt m) (fun c => iprop(Args m c ∗ R c))

theorem held_tail (c : Dev nD) (W : Valuation τ sig (Elt F)) :
    (StableHlo.held (c : Thread nD τ) Stail W : sProp 𝕄)
      = iprop(((c, Proc.devRef .tc main_v10) ↦{fullShare} W (Proc.devRef .tc main_v10)) ∗ ((c, Proc.devRef .tc main_cst_0) ↦{fullShare} W (Proc.devRef .tc main_cst_0))
        ∗ ((c, Proc.devRef .tc main_v11) ↦{fullShare} W (Proc.devRef .tc main_v11)) ∗ ((c, Proc.devRef .tc main_cst_1) ↦{fullShare} W (Proc.devRef .tc main_cst_1))
        ∗ ((c, Proc.devRef .tc main_v12) ↦{fullShare} W (Proc.devRef .tc main_v12))) := by
  unfold StableHlo.held Stail
  rw [bigSep_eq_bigSepL _ (List.Nodup.map (Proc.devRef_injective _) (by decide))]
  rfl

/-- The tail's five buffers, the first at new contents, are the tail's set held at the updated valuation. -/
theorem tail_pack (c : Dev nD) (W : Valuation τ sig (Elt F)) (f10 : Buf (Elt F) ((c : Thread nD τ).loc main_v10)) :
    iprop((((c : Thread nD τ).loc main_v10) ↦{fullShare} f10) ∗ (((c : Thread nD τ).loc main_cst_0) ↦{fullShare} W (Proc.devRef .tc main_cst_0))
        ∗ (((c : Thread nD τ).loc main_v11) ↦{fullShare} W (Proc.devRef .tc main_v11)) ∗ (((c : Thread nD τ).loc main_cst_1) ↦{fullShare} W (Proc.devRef .tc main_cst_1))
        ∗ (((c : Thread nD τ).loc main_v12) ↦{fullShare} W (Proc.devRef .tc main_v12)))
      ⊢ (StableHlo.held (c : Thread nD τ) Stail (Function.update W (Proc.devRef .tc main_v10) f10) : sProp 𝕄) := by
  rw [held_tail, Function.update_self, Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide))]

/-- From what the region left to what the tail takes: the row-sum array at its final contents, the four scalar
    buffers and the arguments; everything else is let go. -/
theorem mid_to_tail (c : Dev nD) : iprop(Tmid m c ∗ R c) ⊢ (iprop(StableHlo.held (c : Thread nD τ) Stail (Vt m c) ∗ Args m c ∗ R c) : sProp 𝕄) := by
  unfold Tmid Dat.arrays
  rw [bigSep_W0, unscopedRest0_eq, arr_out_eq]
  iintro ⟨⟨⟨-, -, -, -, -, -, H10⟩, Ha0, Ha1, -, -, -, -, -, -, -, -, -, -, Hc0, H11, Hc1, H12⟩, HR⟩
  isplitl [H10 Hc0 H11 Hc1 H12]
  · iapply (tail_pack c (Vh m c) ((dats m 0 c).arrAt 6 cfg0.N))
    isplitl [H10]; · iexact H10
    isplitl [Hc0]; · iexact Hc0
    isplitl [H11]; · iexact H11
    isplitl [Hc1]; · iexact Hc1
    iexact H12
  isplitr [HR]
  · isplitl [Ha0]; · iexact Ha0
    iexact Ha1
  iexact HR

/-- What the run ends with: the tail's buffers after its operations, and the arguments. -/
abbrev Tₙ (c : Dev nD) : sProp 𝕄 :=
  iprop(StableHlo.held (c : Thread nD τ) Stail (StableHlo.after hostOps1 (Vt m c)) ∗ Args m c)

theorem tail_to_end (c : Dev nD) :
    iprop(StableHlo.held (c : Thread nD τ) Stail (StableHlo.after hostOps1 (Vt m c)) ∗ Args m c ∗ R c) ⊢ (iprop(Tₙ m c ∗ R c) : sProp 𝕄) := by
  iintro ⟨Hh, Ha, HR⟩
  isplitr [HR]
  · isplitl [Hh]; · iexact Hh
    iexact Ha
  iexact HR

abbrev segs : List (Pipeline.Seg (pcfgs (F := F)) adm (dats m) () defs₀ 𝒱₀ L lv) :=
  [.host (segA m), .host (segB m), .region (reg0 m), .host (segC m)]

def u₀ : UR sig nD τ := initOf (Pipeline.cells cfgs cellOf_inj) (Pipeline.launchToks cfgs cellOf_inj)

/-- The result the run ends with on core `c`. -/
def result (c : Dev nD) : Buf (Elt F) ((c : Thread nD τ).loc main_v12) := StableHlo.after hostOps1 (Vt m c) (Proc.devRef .tc main_v12)

/-- The physical post: the result buffer at `result`, both arguments as launched. -/
def QC : PUnit × MemSt nD τ sig (Elt F) → Prop := fun r =>
  ∀ c : Dev nD, r.2.mem ((c : Thread nD τ).loc main_v12) = result m c
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- Every weakly fair execution of @main terminates, faults nowhere, and ends with the result buffer at `result` and
    both arguments as launched. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => mid_to_tail m c, fun c => tail_to_end m c⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v12) = result m c
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ, Args]; rw [held_tail, V_arg0, V_arg1]
      iintro ⟨⟨⟨-, -, -, -, H12⟩, H0, H1⟩, HSI⟩
      icombine HSI H12 gives %h12
      icombine HSI H0 gives %h0
      icombine HSI H1 gives %h1
      imodintro
      isplitr; · ipureintro; exact ⟨Buf.eq_of_forall_mem_univ h12, Buf.eq_of_forall_mem_univ h0, Buf.eq_of_forall_mem_univ h1⟩
      iexact HSI)
    (hQ := fun _ h => h)

end Cert.Kernel.Hand

end
-- ==== Proof.IRuns.lean ====
/-
  The kernel body at one grid point, run symbolically on whole staging buffers.

  The grid is 8 x 16: coordinate 0 picks a block of 1024 rows, coordinate 1 a block of 512 columns of the
  8192 x 8192 pair matrix. The body keeps, in the output block (1024 x 1), the running row sums of the masked
  hinge terms over the column blocks met so far. Two control cases: at column block 0 the output block is first
  overwritten with zeros and then the block's partial row sums are added (the reset case); at every other
  column block the partial row sums are added to what the previous point left (the accumulating case). In both
  the six input buffers are only read. Each case is stated as: from the inputs at given contents (and the output
  buffer at anything, respectively at given contents), the body runs to the inputs unchanged and the output
  buffer at a list of whole-block stores.
-/
import proofs.«158900_j3702261809485_1_alg».proof.Proof.Gen.KernelIdeal.Launch
import proofs.«158900_j3702261809485_1_alg».proof.Proof.Gen.KernelIdeal.Skeleton
import proofs.«158900_j3702261809485_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinates: the column-block coordinate is zero. -/
abbrev resetCond (i : grid0.Coords) : Prop :=
  (Scalar.cmpi .ne (Scalar.extui (Scalar.cmpi .eq (BitVec.ofNat 32 (i 1).val) 0#32)) 0#32) = 1#1

/-- Over the 128 points in row-major order it holds exactly at the multiples of 16. -/
theorem resetCond_iff : ∀ t : Fin cfg0.N, resetCond (grid0.coords t) ↔ t.val % 16 = 0 :=
  (by decide +kernel : ∀ t : Fin grid0.N, resetCond (grid0.coords t) ↔ t.val % 16 = 0)

set_option maxHeartbeats 1000000 in
/-- The reset case: the output buffer, at anything, ends at the stores the body made (zeros, then zeros plus the
    block's partial row sums); the inputs are as they were. -/
noncomputable def runReset (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : resetCond i)
    (x0 : Vec F S1024x512 .bf16) (x1 : Vec F S512x512 .bf16) (x2 : Vec F S1024x1 .f32) (x3 : Vec F S1x512 .f32) (x4 : Vec F S1024x1 .i32) (x5 : Vec F S1x512 .i32) :
    { L : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L)) -∗ K ⟨⟩))
          ⊢ wp frame (wpE (defs₀ (F := F)) Variants.none c none) E (cc0__kernel i a2 h2 a3 h3 a4 h4 a5 h5 a6 h6 a7 h7 a8 h8) K } := by
  refine ⟨?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := h2.eq_unread hf0
    obtain rfl := h3.eq_unread hf1
    obtain rfl := h4.eq_unread hf2
    obtain rfl := h5.eq_unread hf3
    obtain rfl := h6.eq_unread hf4
    obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H6

set_option maxHeartbeats 1000000 in
/-- The accumulating case: the output buffer, at the contents `xo` the previous point left, ends at the one store the
    body made (`xo` plus the block's partial row sums); the inputs are as they were. -/
noncomputable def runAcc (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : ¬resetCond i)
    (x0 : Vec F S1024x512 .bf16) (x1 : Vec F S512x512 .bf16) (x2 : Vec F S1024x1 .f32) (x3 : Vec F S1x512 .f32) (x4 : Vec F S1024x1 .i32) (x5 : Vec F S1x512 .i32) (xo : Vec F S1024x1 .f32) :
    { L : List (View.Piece (Elt F) S1024x1 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare xo
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L)) -∗ K ⟨⟩))
          ⊢ wp frame (wpE (defs₀ (F := F)) Variants.none c none) E (cc0__kernel i a2 h2 a3 h3 a4 h4 a5 h5 a6 h6 a7 h7 a8 h8) K } := by
  refine ⟨?_, fun E K => ?run⟩
  case run =>
    simp only [cc0__kernel_eq_skeleton]; unfold cc0__kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h2.eq_unread hf0
    obtain rfl := h3.eq_unread hf1
    obtain rfl := h4.eq_unread hf2
    obtain rfl := h5.eq_unread hf3
    obtain rfl := h6.eq_unread hf4
    obtain rfl := h7.eq_unread hf5
    obtain rfl := h8.eq_unread hf6
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    iexists _; iexact H6

end Cert.KernelIdeal.Hand

end
-- ==== Proof.IFrame.lean ====
/-
  What the output block holds after each grid point, the pipeline's proof data, and the body obligation.

  The points run in row-major order over the 8 x 16 grid: point t is row block t / 16, column block t % 16. An
  input window's staging buffer holds, whenever the body runs, the window's block of its array (rows
  1024 (t / 16) … for the row-side windows, columns 512 (t % 16) … for the column-side ones), whether the pipeline
  fetched it at this point or kept it from the point before. The output window's staging buffer is written back
  only at the last column block of a row block, so between two write-backs it carries the running row sums: at a
  point with t % 16 = 0 the body resets it, at every other point the body adds to what the previous point left.
  `outsAt` is that recursion; the proof data names it as what the body leaves in the output window.
-/
import proofs.«158900_j3702261809485_1_alg».proof.Proof.IRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation of the host operations; -/
abbrev V₀ (c : Dev nD) : Valuation τ sig (Elt F) := fun b => m ((c : Dev nD), b)
/-- and when the region is entered: the normalisation, the row norms and the reshapes have run. -/
abbrev Vh (c : Dev nD) : Valuation τ sig (Elt F) := StableHlo.after hostOps0_1 (StableHlo.after hostOps0 (V₀ m c))
abbrev V (c : Dev nD) (b : Ref sig .tc) : Buf (Elt F) ((c : Thread nD τ).loc b) := Vh m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The staging memrefs at a point -/

abbrev VO : View sig .tc .vmem S1024x1 .f32 := (Memref.whole cc0_stg6_0 : Memref sig .tc .vmem S1024x1 .f32).view
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)

/-! ## What each case leaves in the output block -/

theorem coverReset (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : resetCond i) (x0 : Vec F S1024x512 .bf16) (x1 : Vec F S512x512 .bf16) (x2 : Vec F S1024x1 .f32) (x3 : Vec F S1x512 .f32) (x4 : Vec F S1024x1 .i32) (x5 : Vec F S1x512 .i32) (y : S1024x1.Idx) :
    ∃ pc ∈ (runReset c i a2 h2 a3 h3 a4 h4 a5 h5 a6 h6 a7 h7 a8 h8 hc x0 x1 x2 x3 x4 x5).1, y ∈ pc.1.set :=
  View.cover_of_tiledL (runReset c i a2 h2 a3 h3 a4 h4 a5 h5 a6 h6 a7 h7 a8 h8 hc x0 x1 x2 x3 x4 x5).1 S1024x1.size (by sl_kernel_rfl) y

/-- The reset case's stores read back. -/
def outReset (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : resetCond i) (x0 : Vec F S1024x512 .bf16) (x1 : Vec F S512x512 .bf16) (x2 : Vec F S1024x1 .f32) (x3 : Vec F S1x512 .f32) (x4 : Vec F S1024x1 .i32) (x5 : Vec F S1x512 .i32) : Vec F S1024x1 .f32 :=
  VO.read (Elt F) (VO.writes (Elt F) VO.junk (runReset c i a2 h2 a3 h3 a4 h4 a5 h5 a6 h6 a7 h7 a8 h8 hc x0 x1 x2 x3 x4 x5).1)

theorem coverAcc (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : ¬resetCond i) (x0 : Vec F S1024x512 .bf16) (x1 : Vec F S512x512 .bf16) (x2 : Vec F S1024x1 .f32) (x3 : Vec F S1x512 .f32) (x4 : Vec F S1024x1 .i32) (x5 : Vec F S1x512 .i32) (xo : Vec F S1024x1 .f32) (y : S1024x1.Idx) :
    ∃ pc ∈ (runAcc c i a2 h2 a3 h3 a4 h4 a5 h5 a6 h6 a7 h7 a8 h8 hc x0 x1 x2 x3 x4 x5 xo).1, y ∈ pc.1.set :=
  View.cover_of_tiledL (runAcc c i a2 h2 a3 h3 a4 h4 a5 h5 a6 h6 a7 h7 a8 h8 hc x0 x1 x2 x3 x4 x5 xo).1 S1024x1.size (by sl_kernel_rfl) y

/-- The accumulating case's store read back. -/
def outAcc (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : ¬resetCond i) (x0 : Vec F S1024x512 .bf16) (x1 : Vec F S512x512 .bf16) (x2 : Vec F S1024x1 .f32) (x3 : Vec F S1x512 .f32) (x4 : Vec F S1024x1 .i32) (x5 : Vec F S1x512 .i32) (xo : Vec F S1024x1 .f32) : Vec F S1024x1 .f32 :=
  VO.read (Elt F) (VO.writes (Elt F) VO.junk (runAcc c i a2 h2 a3 h3 a4 h4 a5 h5 a6 h6 a7 h7 a8 h8 hc x0 x1 x2 x3 x4 x5 xo).1)

/-! ## The running row sums, point by point -/

/-- What the output window's staging buffer holds after the body at position `n`. -/
def outsAt (c : Dev nD) : (n : ℕ) → n < cfg0.N → Vec F S1024x1 .f32
  | 0, hn => outReset c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((resetCond_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 16 = 0 then
      outReset c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((resetCond_iff ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      outAcc c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((resetCond_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn))

theorem outsAt_reset (c : Dev nD) (t : Fin cfg0.N) (h0 : t.val % 16 = 0) :
    outsAt m c t.val t.isLt = outReset c (grid0.coords t) (ms0 t) (hs0 t) (ms1 t) (hs1 t) (ms2 t) (hs2 t) (ms3 t) (hs3 t) (ms4 t) (hs4 t) (ms5 t) (hs5 t) (ms6 t) (hs6 t) ((resetCond_iff t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem outsAt_acc (c : Dev nD) (t : Fin cfg0.N) (h0 : ¬t.val % 16 = 0) :
    outsAt m c t.val t.isLt = outAcc c (grid0.coords t) (ms0 t) (hs0 t) (ms1 t) (hs1 t) (ms2 t) (hs2 t) (ms3 t) (hs3 t) (ms4 t) (hs4 t) (ms5 t) (hs5 t) (ms6 t) (hs6 t) (fun h => h0 ((resetCond_iff t).mp h)) (iblk m c 0 t) (iblk m c 1 t) (iblk m c 2 t) (iblk m c 3 t) (iblk m c 4 t) (iblk m c 5 t) (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The normalised matrix is handed to the kernel twice (row side and column side): each of the two windows on
    it holds one half of the array's share. Every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt)
  Φ _ := BI.emp
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t = (outsAt m c t.val t.isLt) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-- Away from the first column block the output window's buffer holds what the body left at the point before: it
    was not written back in between. -/
theorem before_out_acc (c : Dev nD) (t : Fin cfg0.N) (h0 : ¬t.val % 16 = 0) (d) :
    (dats m 0 c).before 6 t d = (outsAt m c (t.val - 1) (Nat.lt_of_le_of_lt (Nat.sub_le _ _) t.isLt)) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  have hN : t.val < 128 := lt_of_lt_of_eq t.isLt (show cfg0.N = 128 from N_0)
  by_cases h0 : t.val % 16 = 0
  · rw [outsAt_reset m c t h0]
    unfold outReset
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runReset c (grid0.coords t) _ _ _ _ _ _ _ _ _ _ _ _ _ _ ((resetCond_iff t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverReset c _ _ _ _ _ _ _ _ _ _ _ _ _ _ _ _ _ _ _ _ _ _)
  · rw [outsAt_acc m c t h0]
    simp only [before_out_acc m c t h0]
    unfold outAcc
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((runAcc c (grid0.coords t) _ _ _ _ _ _ _ _ _ _ _ _ _ _ (fun h => h0 ((resetCond_iff t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverAcc c _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.ILaunch.lean ====
/-
  The whole run of @main: host operations, the kernel region, host operations.

  @main is the row norms (a called function, five operations), ten more host operations (the normalised matrix,
  its squared row norms, the reshapes of the norms and of the labels), the kernel region over the 8 x 16 grid, and
  four host operations (the sum of the 8192 row sums and its scaling). It is cut into those four segments. The
  normalised matrix is read by two windows of the kernel; at the region's entry its buffer's share is halved
  between them. The region leaves the row-sum array at what the pipeline's account computes from the proof data;
  the last segment runs on that array and the four scalar buffers it writes.
-/
import proofs.«158900_j3702261809485_1_alg».proof.Proof.IFrame
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none
/-- What rides beside the buffers: the core owes no one anything. -/
abbrev R (c : Dev nD) : sProp 𝕄 := iprop(∃ W, owes (c : Thread nD τ) (0 : CellTallies nD τ sig Unit) W)

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-! ## The two host stretches before the region -/

def segA : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    fresh0 (V₀ m) R

def segB : Pipeline.HostSeg (Name := ℕ) (U := UR sig nD τ) (pcfgs (F := F)) defs₀ 𝒱₀ L lv :=
  Pipeline.HostSeg.ofOps _ _ _ _ _ (Pipeline.ucRefs τ sig) hostOps0_1 (fun op h => Pipeline.sub_ucRefs op ((List.forall_iff_forall_mem.mp hostOps0_1_sub) op h))
    fresh0_1 (fun c => StableHlo.after hostOps0 (V₀ m c)) R

/-! ## Arguments are written by no host operation -/

theorem not_written0 (b : Ref sig .tc) (hb : b ≠ main_call0_v0 ∧ b ≠ main_call0_cst ∧ b ≠ main_call0_v1 ∧ b ≠ main_call0_v2 ∧ b ≠ main_v0) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.TRef.binary, StableHlo.TRef.unary, StableHlo.TRef.nullary, StableHlo.TRef.of, StableHlo.unary_writes, StableHlo.binary_writes, StableHlo.nullary_writes, Finset.mem_singleton] <;>
    exact StableHlo.devRef_ne_of_ne ‹_›

theorem not_written0_1 (b : Ref sig .tc) (hb : b ≠ main_v1 ∧ b ≠ main_v2 ∧ b ≠ main_v3 ∧ b ≠ main_v4 ∧ b ≠ main_cst ∧ b ≠ main_v5 ∧ b ≠ main_v6 ∧ b ≠ main_v7 ∧ b ≠ main_v8 ∧ b ≠ main_v9) :
    ∀ op ∈ (hostOps0_1 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

theorem V_arg0 (c : Dev nD) : V m c main_arg0 = m ((c : Thread nD τ).loc main_arg0) :=
  (StableHlo.after_of_forall_not_mem (b := Proc.devRef .tc main_arg0) hostOps0_1 _ (not_written0_1 main_arg0 (by decide))).trans
    (StableHlo.after_of_forall_not_mem (b := Proc.devRef .tc main_arg0) hostOps0 (V₀ m c) (not_written0 main_arg0 (by decide)))

theorem V_arg1 (c : Dev nD) : V m c main_arg1 = m ((c : Thread nD τ).loc main_arg1) :=
  (StableHlo.after_of_forall_not_mem (b := Proc.devRef .tc main_arg1) hostOps0_1 _ (not_written0_1 main_arg1 (by decide))).trans
    (StableHlo.after_of_forall_not_mem (b := Proc.devRef .tc main_arg1) hostOps0 (V₀ m c) (not_written0 main_arg1 (by decide)))

/-! ## The region's entry: the arrays dealt to the windows -/

theorem sepL6 {M : Type _} [URA M] {I : Type _} (a b c d e f : I) (Φ : I → sProp M) :
    bigSepL [a, b, c, d, e, f] Φ = iprop(Φ a ∗ Φ b ∗ Φ c ∗ Φ d ∗ Φ e ∗ Φ f) := rfl

section EntrySplit

/-- Each window's array, as the pipeline's account holds it, is its buffer, whole, at the window's share. -/
theorem arr_in0 (c : Dev nD) (f : Buf (Elt F) ((cfg0.win 0).arr.view.loc (c : Thread nD τ))) :
    ((cfg0.win 0).arr.view.loc (c : Thread nD τ) ↦[(cfg0.win 0).arr.view.set]{(dats m 0 c).share 0} f : sProp 𝕄)
      = (((c : Thread nD τ).loc main_v3) ↦{fullShare.left} f) := by
  rw [(arr_whole0 0).set_eq_univ]; rfl
theorem arr_in1 (c : Dev nD) (f : Buf (Elt F) ((cfg0.win 1).arr.view.loc (c : Thread nD τ))) :
    ((cfg0.win 1).arr.view.loc (c : Thread nD τ) ↦[(cfg0.win 1).arr.view.set]{(dats m 0 c).share 1} f : sProp 𝕄)
      = (((c : Thread nD τ).loc main_v3) ↦{fullShare.right} f) := by
  rw [(arr_whole0 1).set_eq_univ]; rfl
theorem arr_in2 (c : Dev nD) (f : Buf (Elt F) ((cfg0.win 2).arr.view.loc (c : Thread nD τ))) :
    ((cfg0.win 2).arr.view.loc (c : Thread nD τ) ↦[(cfg0.win 2).arr.view.set]{(dats m 0 c).share 2} f : sProp 𝕄)
      = (((c : Thread nD τ).loc main_v6) ↦{fullShare} f) := by
  rw [(arr_whole0 2).set_eq_univ]; rfl
theorem arr_in3 (c : Dev nD) (f : Buf (Elt F) ((cfg0.win 3).arr.view.loc (c : Thread nD τ))) :
    ((cfg0.win 3).arr.view.loc (c : Thread nD τ) ↦[(cfg0.win 3).arr.view.set]{(dats m 0 c).share 3} f : sProp 𝕄)
      = (((c : Thread nD τ).loc main_v7) ↦{fullShare} f) := by
  rw [(arr_whole0 3).set_eq_univ]; rfl
theorem arr_in4 (c : Dev nD) (f : Buf (Elt F) ((cfg0.win 4).arr.view.loc (c : Thread nD τ))) :
    ((cfg0.win 4).arr.view.loc (c : Thread nD τ) ↦[(cfg0.win 4).arr.view.set]{(dats m 0 c).share 4} f : sProp 𝕄)
      = (((c : Thread nD τ).loc main_v8) ↦{fullShare} f) := by
  rw [(arr_whole0 4).set_eq_univ]; rfl
theorem arr_in5 (c : Dev nD) (f : Buf (Elt F) ((cfg0.win 5).arr.view.loc (c : Thread nD τ))) :
    ((cfg0.win 5).arr.view.loc (c : Thread nD τ) ↦[(cfg0.win 5).arr.view.set]{(dats m 0 c).share 5} f : sProp 𝕄)
      = (((c : Thread nD τ).loc main_v9) ↦{fullShare} f) := by
  rw [(arr_whole0 5).set_eq_univ]; rfl
theorem arr_out_eq (c : Dev nD) (f : Buf (Elt F) ((cfg0.win 6).arr.view.loc (c : Thread nD τ))) :
    ((cfg0.win 6).arr.view.loc (c : Thread nD τ) ↦[(cfg0.win 6).arr.view.set]{(dats m 0 c).share 6} f : sProp 𝕄)
      = (((c : Thread nD τ).loc main_v10) ↦{fullShare} f) := by
  rw [(arr_whole0 6).set_eq_univ]; rfl

/-- The unscoped buffers at the region's entry are the windows' arrays — the normalised matrix's share halved
    between its two windows — and the buffers no window stages. -/
theorem entry_split (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c)]
  refine sep_mono ?_ .rfl
  unfold Pipeline.arrBufs Dat.arrays
  rw [bigSep_eq_bigSepL_of_eq [main_v3, main_v6, main_v7, main_v8, main_v9, main_v10] (by decide) (by decide), sepL6, bigSep_W0]
  have hs : (((c : Thread nD τ).loc main_v3) ↦{fullShare} V m c main_v3 : sProp 𝕄)
      ⊢ iprop((((c : Thread nD τ).loc main_v3) ↦{fullShare.left} V m c main_v3) ∗ (((c : Thread nD τ).loc main_v3) ↦{fullShare.right} V m c main_v3)) :=
    (pointsTo_share (PosShare.mem_left_op_right fullShare)).1
  have h0 : ∀ w, (dats m 0 c).arrAt w 0 = V m c (Pipeline.arrRef spec0 w) := fun _ => rfl
  beta_reduce
  rw [arr_in0, arr_in1, arr_in2, arr_in3, arr_in4, arr_in5, arr_out_eq]
  simp only [h0]
  refine (sep_mono hs .rfl).trans ?_
  iintro ⟨⟨H3a, H3b⟩, H6, H7, H8, H9, H10⟩
  isplitl [H3a]; · iexact H3a
  isplitl [H3b]; · iexact H3b
  isplitl [H6]; · iexact H6
  isplitl [H7]; · iexact H7
  isplitl [H8]; · iexact H8
  isplitl [H9]; · iexact H9
  iexact H10

end EntrySplit

/-! ## The region and the tail -/

/-- The buffers the four operations after the region touch. -/
abbrev tailRefs : List (Ref sig .tc) := [main_v10, main_cst_0, main_v11, main_cst_1, main_v12]
def Stail : Finset (DevRef τ sig) := (tailRefs.map (Proc.devRef (τ := τ) .tc)).toFinset

/-- The buffers as the tail finds them: the row-sum array at what the pipeline wrote back, the rest as before. -/
def Vt (c : Dev nD) : Valuation τ sig (Elt F) :=
  Function.update (Vh m c) (Proc.devRef .tc main_v10) ((dats m 0 c).arrAt 6 cfg0.N)

theorem subC : ∀ op ∈ (hostOps1 (F := F)), op.bufs ⊆ Stail := by
  intro op hop b hb
  simp only [List.mem_cons, List.mem_nil_iff, or_false] at hop
  unfold Stail
  rw [List.mem_toFinset]
  rcases hop with rfl | rfl | rfl | rfl <;>
    simp only [StableHlo.nullary_bufs, StableHlo.binary_bufs, Finset.mem_insert, Finset.mem_singleton] at hb <;>
    simp only [tailRefs, List.map, List.mem_cons, List.mem_nil_iff, or_false] <;> tauto

/-- What is left between the region and the tail: the arrays at their final contents and the buffers that bypassed
    the region. -/
abbrev Tmid (c : Dev nD) : sProp 𝕄 :=
  iprop((dats m 0 c).arrays ((dats m 0 c).arrAt · cfg0.N) ∗ Pipeline.unscopedRest spec0 c (V m c))

/-- The arguments, as the region found them. -/
abbrev Args (c : Dev nD) : sProp 𝕄 :=
  iprop((((c : Thread nD τ).loc main_arg0) ↦{fullShare} V m c main_arg0) ∗ (((c : Thread nD τ).loc main_arg1) ↦{fullShare} V m c main_arg1))

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vh m c) ∗ R c)
  post c := iprop(Tmid m c ∗ R c)
  X c := BI.emp
  Y c := BI.emp
  Z c := Pipeline.unscopedRest spec0 c (V m c)
  hentry c := by
    rw [show StableHlo.held (c : Thread nD τ) (Pipeline.ucRefs τ sig) (Vh m c) = unscopedBufs c (V m c) from (Pipeline.unscopedBufs_held c _).symm]
    iintro ⟨⟨Hh, HO⟩, -, -⟩
    ihave H := (entry_split m c) $$ Hh
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hz
  hin c := by
    rw [show (dats m 0 c).Φ 0 = BI.emp from rfl]
    iintro -; iempintro
  hout c := by
    unfold Pipeline.ownSems0
    rw [Finset.univ_eq_empty, BI.bigSep_empty, scopedRest0_eq]
    iintro -
    isplitr; · iempintro
    isplitr <;> iempintro
  hexit c := by
    iintro ⟨Ha, HO, -, HZ⟩
    imodintro
    isplitr [HO]
    · isplitl [Ha]; · iexact Ha
      iexact HZ
    · unfold Pipeline.Dat.owesAt Pipeline.owesWithin
      icases HO with ⟨%W, -, HO⟩; iexists W; iexact HO

def segC : Pipeline.HostSeg (Name := ℕ) (U := UR sig nD τ) (pcfgs (F := F)) defs₀ 𝒱₀ L lv :=
  Pipeline.HostSeg.ofOps _ _ _ _ _ Stail hostOps1 subC fresh1 (Vt m) (fun c => iprop(Args m c ∗ R c))

theorem held_tail (c : Dev nD) (W : Valuation τ sig (Elt F)) :
    (StableHlo.held (c : Thread nD τ) Stail W : sProp 𝕄)
      = iprop(((c, Proc.devRef .tc main_v10) ↦{fullShare} W (Proc.devRef .tc main_v10)) ∗ ((c, Proc.devRef .tc main_cst_0) ↦{fullShare} W (Proc.devRef .tc main_cst_0))
        ∗ ((c, Proc.devRef .tc main_v11) ↦{fullShare} W (Proc.devRef .tc main_v11)) ∗ ((c, Proc.devRef .tc main_cst_1) ↦{fullShare} W (Proc.devRef .tc main_cst_1))
        ∗ ((c, Proc.devRef .tc main_v12) ↦{fullShare} W (Proc.devRef .tc main_v12))) := by
  unfold StableHlo.held Stail
  rw [bigSep_eq_bigSepL _ (List.Nodup.map (Proc.devRef_injective _) (by decide))]
  rfl

/-- The tail's five buffers, the first at new contents, are the tail's set held at the updated valuation. -/
theorem tail_pack (c : Dev nD) (W : Valuation τ sig (Elt F)) (f10 : Buf (Elt F) ((c : Thread nD τ).loc main_v10)) :
    iprop((((c : Thread nD τ).loc main_v10) ↦{fullShare} f10) ∗ (((c : Thread nD τ).loc main_cst_0) ↦{fullShare} W (Proc.devRef .tc main_cst_0))
        ∗ (((c : Thread nD τ).loc main_v11) ↦{fullShare} W (Proc.devRef .tc main_v11)) ∗ (((c : Thread nD τ).loc main_cst_1) ↦{fullShare} W (Proc.devRef .tc main_cst_1))
        ∗ (((c : Thread nD τ).loc main_v12) ↦{fullShare} W (Proc.devRef .tc main_v12)))
      ⊢ (StableHlo.held (c : Thread nD τ) Stail (Function.update W (Proc.devRef .tc main_v10) f10) : sProp 𝕄) := by
  rw [held_tail, Function.update_self, Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide))]

/-- From what the region left to what the tail takes: the row-sum array at its final contents, the four scalar
    buffers and the arguments; everything else is let go. -/
theorem mid_to_tail (c : Dev nD) : iprop(Tmid m c ∗ R c) ⊢ (iprop(StableHlo.held (c : Thread nD τ) Stail (Vt m c) ∗ Args m c ∗ R c) : sProp 𝕄) := by
  unfold Tmid Dat.arrays
  rw [bigSep_W0, unscopedRest0_eq, arr_out_eq]
  iintro ⟨⟨⟨-, -, -, -, -, -, H10⟩, Ha0, Ha1, -, -, -, -, -, -, -, -, -, -, Hc0, H11, Hc1, H12⟩, HR⟩
  isplitl [H10 Hc0 H11 Hc1 H12]
  · iapply (tail_pack c (Vh m c) ((dats m 0 c).arrAt 6 cfg0.N))
    isplitl [H10]; · iexact H10
    isplitl [Hc0]; · iexact Hc0
    isplitl [H11]; · iexact H11
    isplitl [Hc1]; · iexact Hc1
    iexact H12
  isplitr [HR]
  · isplitl [Ha0]; · iexact Ha0
    iexact Ha1
  iexact HR

/-- What the run ends with: the tail's buffers after its operations, and the arguments. -/
abbrev Tₙ (c : Dev nD) : sProp 𝕄 :=
  iprop(StableHlo.held (c : Thread nD τ) Stail (StableHlo.after hostOps1 (Vt m c)) ∗ Args m c)

theorem tail_to_end (c : Dev nD) :
    iprop(StableHlo.held (c : Thread nD τ) Stail (StableHlo.after hostOps1 (Vt m c)) ∗ Args m c ∗ R c) ⊢ (iprop(Tₙ m c ∗ R c) : sProp 𝕄) := by
  iintro ⟨Hh, Ha, HR⟩
  isplitr [HR]
  · isplitl [Hh]; · iexact Hh
    iexact Ha
  iexact HR

abbrev segs : List (Pipeline.Seg (pcfgs (F := F)) adm (dats m) () defs₀ 𝒱₀ L lv) :=
  [.host (segA m), .host (segB m), .region (reg0 m), .host (segC m)]

def u₀ : UR sig nD τ := initOf (Pipeline.cells cfgs cellOf_inj) (Pipeline.launchToks cfgs cellOf_inj)

/-- The result the run ends with on core `c`. -/
def result (c : Dev nD) : Buf (Elt F) ((c : Thread nD τ).loc main_v12) := StableHlo.after hostOps1 (Vt m c) (Proc.devRef .tc main_v12)

/-- The physical post: the result buffer at `result`, both arguments as launched. -/
def QC : PUnit × MemSt nD τ sig (Elt F) → Prop := fun r =>
  ∀ c : Dev nD, r.2.mem ((c : Thread nD τ).loc main_v12) = result m c
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- Every weakly fair execution of @main terminates, faults nowhere, and ends with the result buffer at `result` and
    both arguments as launched. -/
theorem run_main : θ_run defs (onTc (τ := τ) (main (F := F))) ⟨m, fun _ => 0, ρ⟩ (QC m) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => mid_to_tail m c, fun c => tail_to_end m c⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v12) = result m c
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ, Args]; rw [held_tail, V_arg0, V_arg1]
      iintro ⟨⟨⟨-, -, -, -, H12⟩, H0, H1⟩, HSI⟩
      icombine HSI H12 gives %h12
      icombine HSI H0 gives %h0
      icombine HSI H1 gives %h1
      imodintro
      isplitr; · ipureintro; exact ⟨Buf.eq_of_forall_mem_univ h12, Buf.eq_of_forall_mem_univ h0, Buf.eq_of_forall_mem_univ h1⟩
      iexact HSI)
    (hQ := fun _ h => h)

end Cert.KernelIdeal.Hand

end
-- ==== Proof.IPieces.lean ====
/-
  The output block after a point, in terms of the body's arithmetic.

  In the accumulating case the body's one whole-block store leaves, in the output block, the previous contents plus
  the block's partial row sums; in the reset case the first store puts zeros there, the load after it reads those
  zeros back, and the last store leaves zeros plus the partial row sums. Both are the same pure term of the six
  input blocks and of what the output block held (zeros after a reset).
-/
import proofs.«158900_j3702261809485_1_alg».proof.Proof.IFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem zeroOff : (![0, 0] : Fin 2 → Nat) = fun _ => 0 := funext fun a => by fin_cases a <;> rfl

/-- The block's partial row sums added to `xo`: the body's arithmetic as one term. -/
abbrev step (i : grid0.Coords) (x0 : Vec F S1024x512 .bf16) (x1 : Vec F S512x512 .bf16) (x2 : Vec F S1024x1 .f32) (x3 : Vec F S1x512 .f32) (x4 : Vec F S1024x1 .i32) (x5 : Vec F S1x512 .i32) (xo : Vec F S1024x1 .f32) : Vec F S1024x1 .f32 :=
  k0_pay1 (BitVec.ofNat 32 (i 0).val) (BitVec.ofNat 32 (i 1).val) (k0_pay3 x0 x1 x2 x3 x4 x5) xo

theorem outAcc_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : ¬resetCond i) (x0 : Vec F S1024x512 .bf16) (x1 : Vec F S512x512 .bf16) (x2 : Vec F S1024x1 .f32) (x3 : Vec F S1x512 .f32) (x4 : Vec F S1024x1 .i32) (x5 : Vec F S1x512 .i32) (xo : Vec F S1024x1 .f32) :
    outAcc c i a2 h2 a3 h3 a4 h4 a5 h5 a6 h6 a7 h7 a8 h8 hc x0 x1 x2 x3 x4 x5 xo = step i x0 x1 x2 x3 x4 x5 xo := by
  unfold outAcc
  rw [View.read_writes_eq_canon _ _ _ (coverAcc c i a2 h2 a3 h3 a4 h4 a5 h5 a6 h6 a7 h7 a8 h8 hc x0 x1 x2 x3 x4 x5 xo)]
  unfold runAcc
  dsimp only
  rw [View.canon_unit_zero zeroOff]
  simp only [View.readAt_eq_ld, h2.read_unread, h3.read_unread, h4.read_unread, h5.read_unread, h6.read_unread, h7.read_unread, h8.read_unread,
    View.ld_unit_zero (S := S1024x512) zeroOff, View.ld_unit_zero (S := S512x512) zeroOff, View.ld_unit_zero (S := S1024x1) zeroOff, View.ld_unit_zero (S := S1x512) zeroOff]

theorem outReset_eq (c : Dev nD) (i : grid0.Coords) (a2 : Memref sig .tc .vmem S1024x512 .bf16) (h2 : a2.IsWhole) (a3 : Memref sig .tc .vmem S512x512 .bf16) (h3 : a3.IsWhole) (a4 : Memref sig .tc .vmem S1024x1 .f32) (h4 : a4.IsWhole) (a5 : Memref sig .tc .vmem S1x512 .f32) (h5 : a5.IsWhole) (a6 : Memref sig .tc .vmem S1024x1 .i32) (h6 : a6.IsWhole) (a7 : Memref sig .tc .vmem S1x512 .i32) (h7 : a7.IsWhole) (a8 : Memref sig .tc .vmem S1024x1 .f32) (h8 : a8.IsWhole) (hc : resetCond i) (x0 : Vec F S1024x512 .bf16) (x1 : Vec F S512x512 .bf16) (x2 : Vec F S1024x1 .f32) (x3 : Vec F S1x512 .f32) (x4 : Vec F S1024x1 .i32) (x5 : Vec F S1x512 .i32) :
    outReset c i a2 h2 a3 h3 a4 h4 a5 h5 a6 h6 a7 h7 a8 h8 hc x0 x1 x2 x3 x4 x5 = step i x0 x1 x2 x3 x4 x5 (k0_pay2 (F := F)) := by
  unfold outReset
  rw [View.read_writes_eq_canon _ _ _ (coverReset c i a2 h2 a3 h3 a4 h4 a5 h5 a6 h6 a7 h7 a8 h8 hc x0 x1 x2 x3 x4 x5)]
  unfold runReset
  dsimp only
  sl_unfold_words
  rw [View.canon_cons_unit_zero zeroOff, View.readCov_unit_zero _ zeroOff]
  simp only [View.readAt_eq_ld, h2.read_unread, h3.read_unread, h4.read_unread, h5.read_unread, h6.read_unread, h7.read_unread,
    View.ld_unit_zero (S := S1024x512) zeroOff, View.ld_unit_zero (S := S512x512) zeroOff, View.ld_unit_zero (S := S1024x1) zeroOff, View.ld_unit_zero (S := S1x512) zeroOff]

end Cert.KernelIdeal.Hand

end
-- ==== Proof.LibColumn.lean ====
/-
  Column forms of two layout operations, read at an index.

  A vector of length `a` viewed as an `[a, 1]` column by a shape cast reads, at `(p, 0)`, the vector at `p`, and the column
  viewed back as a vector reads, at `p`, the column at `(p, 0)`; an `[a, 1]` column broadcast along its unit axis to `[a, b]`
  reads, at `(p, q)`, the column at `(p, 0)`. Together they are what a sum along the last axis that keeps the axis (a row
  sum stored as a column, then spread over the row) reads at an index.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column cast to `[a]` reads, at `p`, the column's entry of row `p`. -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An `[a, 1]` column broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.ISpec.lean ====
/-
  The body's arithmetic at the exact values, read at an index.

  For a row r of the point's 1024-row block and a column q of its 512-column block, with x0 the row-side rows of the
  normalised matrix, x1 its column-side rows, x2 / x3 the squared norms and x4 / x5 the labels of the two sides:
  the pair term is  0.3 + s · max (1.2 − ((x2 r + x3 q) − 2 · ∑ₖ x0 r k · x1 q k), 0)  with s = ±1 as the labels agree
  or not, and one point adds to row r of the output block  0 + ∑_q mask r q · (pair term r q),  the mask being 1
  where the global column index is at least the global row index, 0 elsewhere.
-/
import proofs.«158900_j3702261809485_1_alg».proof.Proof.IPieces
import proofs.«158900_j3702261809485_1_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Cert.Lib.Column

/-! ## The Gram entry -/

theorem lhs_ax0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_ax1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem rhs_ax0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem rhs_ax1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The transposed column-side block at (k, q) is the block at (q, k). -/
theorem transposed_apply (x1 : S512x512.Idx → EReal) (k q : Fin 512) :
    transpose S512x512 [1, 0] x1 transposes_S512x512_p1_0_S512x512 (ix2 k q) = x1 (ix2 q k) :=
  transpose_apply [1, 0] x1 transposes_S512x512_p1_0_S512x512 (ix2 k q) (ix2 q k) (fun b => match b with
    | ⟨0, _⟩ => rfl
    | ⟨1, _⟩ => rfl)

/-- The block product into a zero accumulator, at (r, q): the inner product of row r of the row side with row q of
    the column side. -/
theorem gram_apply (x0 : S1024x512.Idx → EReal) (x1 : S512x512.Idx → EReal) (r : Fin 1024) (q : Fin 512) :
    FloatOps.matmul (F := Ideal) (φ₁ := .bf16) (φ₂ := .bf16) dot_S1024x512_S512x512_S1024x512_1_0_0_1_n_n none x0 (transpose S512x512 [1, 0] x1 transposes_S512x512_p1_0_S512x512) (constant S1024x512 .f32 0x00000000#32) (ix2 r q)
      = ∑ k : Fin 512, x0 (ix2 r k) * x1 (ix2 q k) := by
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r q) ((contrEquiv1 dot_S1024x512_S512x512_S1024x512_1_0_0_1_n_n 512 rfl rfl).symm k) = ix2 r k := funext fun a => Fin.ext (by
    match a with
    | ⟨0, _⟩ => exact lhs_ax0 _ _
    | ⟨1, _⟩ => exact (lhs_ax1 _ _).trans hk)
  have er : dot_S1024x512_S512x512_S1024x512_1_0_0_1_n_n.rhsIdx (ix2 r q) ((contrEquiv1 dot_S1024x512_S512x512_S1024x512_1_0_0_1_n_n 512 rfl rfl).symm k) = ix2 k q := funext fun a => Fin.ext (by
    match a with
    | ⟨0, _⟩ => exact (rhs_ax0 _ _).trans hk
    | ⟨1, _⟩ => exact rhs_ax1 _ _)
  rw [el, er, transposed_apply]

/-! ## The pair term -/

/-- The pair term of row r and column q of a point's blocks. -/
def pairTerm (x0 : S1024x512.Idx → EReal) (x1 : S512x512.Idx → EReal) (x2 : S1024x1.Idx → EReal) (x3 : S1x512.Idx → EReal)
    (x4 : S1024x1.Idx → BitVec 32) (x5 : S1x512.Idx → BitVec 32) (r : Fin 1024) (q : Fin 512) : EReal :=
  Ideal.ofBits .f32 0x3E99999A#32
    + Scalar.select (IntOp.cmpi .eq (x4 (ix2 r (0 : Fin 1))) (x5 (ix2 (0 : Fin 1) q))) (Ideal.ofBits .f32 0x3F800000#32) (Ideal.ofBits .f32 0xBF800000#32)
      * max (Ideal.ofBits .f32 0x3F99999A#32
          - ((x2 (ix2 r (0 : Fin 1)) + x3 (ix2 (0 : Fin 1) q)) - Ideal.ofBits .f32 0x40000000#32 * ∑ k : Fin 512, x0 (ix2 r k) * x1 (ix2 q k)))
        (Ideal.ofBits .f32 0x00000000#32)

theorem pay3_apply (x0 : Vec Ideal S1024x512 .bf16) (x1 : Vec Ideal S512x512 .bf16) (x2 : Vec Ideal S1024x1 .f32) (x3 : Vec Ideal S1x512 .f32)
    (x4 : Vec Ideal S1024x1 .i32) (x5 : Vec Ideal S1x512 .i32) (r : Fin 1024) (q : Fin 512) :
    k0_pay3 (F := Ideal) x0 x1 x2 x3 x4 x5 (ix2 r q) = pairTerm x0 x1 x2 x3 x4 x5 r q := by
  unfold k0_pay3 pairTerm
  simp only [shapeCast_self]
  show Ideal.ofBits .f32 0x3E99999A#32
    + Scalar.select (IntOp.cmpi .eq (broadcastTo S1024x512 x4 broadcasts_S1024x1_S1024x512 (ix2 r q)) (broadcastTo S1024x512 x5 broadcasts_S1x512_S1024x512 (ix2 r q))) (Ideal.ofBits .f32 0x3F800000#32) (Ideal.ofBits .f32 0xBF800000#32)
      * max (Ideal.ofBits .f32 0x3F99999A#32
          - ((broadcastTo S1024x512 x2 broadcasts_S1024x1_S1024x512 (ix2 r q) + broadcastTo S1024x512 x3 broadcasts_S1x512_S1024x512 (ix2 r q))
            - Ideal.ofBits .f32 0x40000000#32 * FloatOps.matmul (F := Ideal) (φ₁ := .bf16) (φ₂ := .bf16) dot_S1024x512_S512x512_S1024x512_1_0_0_1_n_n none x0 (transpose S512x512 [1, 0] x1 transposes_S512x512_p1_0_S512x512) (constant S1024x512 .f32 0x00000000#32) (ix2 r q)))
        (Ideal.ofBits .f32 0x00000000#32) = _
  rw [gram_apply, broadcastTo_a1_ab_apply, broadcastTo_a1_ab_apply, broadcastTo_1b_ab_apply, broadcastTo_1b_ab_apply]

end Cert.KernelIdeal.Hand

end
-- ==== Proof.ISum.lean ====
/-
  One point's contribution to a row of the output block.

  At the exact values the lane reduction is a plain sum over the 512 columns of the block; the mask entry at local
  (r, q) of the point with row block a and column block b is 1 when 512 b + q ≥ 1024 a + r and 0 otherwise — the same
  0/1 value the comparison of the two global indices gives; and the body adds, to what row r of the output block
  held, the masked pair terms of the block's 512 columns.
-/
import proofs.«158900_j3702261809485_1_alg».proof.Proof.ISpec

set_option maxRecDepth 16384

noncomputable section

namespace Cert.KernelIdeal.Hand

open Cert.KernelIdeal Cert.KernelIdeal.Gen
open Idealize.ShloMosaic Idealize.ShloMosaic.ValueIdx Cert.Lib.Column

/-- The lane sum of a [1024, 512] array at row r, the accumulator being zero. -/
theorem laneSum_apply (src : FVec Ideal S1024x512 .f32) (hacc : (0x00000000#32 : BitVec 32) = 0x00000000#32) (r : Fin 1024) :
    multiReduction .add [1] S1024 src 0x00000000#32 reduces_S1024x512_S1024 (.inl rfl) hacc (ix1 r) = ∑ q : Fin 512, src (ix2 r q) := by
  refine (Ideal.multiReduction_add_single src 0x00000000#32 reduces_S1024x512_S1024 (.inl rfl) hacc (ix1 r)).trans ?_
  refine Finset.sum_congr rfl fun q _ => congrArg src (funext fun a => Fin.ext ?_)
  match a with
  | ⟨0, _⟩ => rfl
  | ⟨1, _⟩ => rfl

/-- The mask entry at local (r, q), from the two block coordinates as 32-bit words. -/
def maskVal (a0 a1 : BitVec 32) (r : Fin 1024) (q : Fin 512) : EReal :=
  (sitofp (F := Ideal) .f32 (extui 32 (cmpi .sge (addi (iota .tc S1024x512 32 [1] iota_S1024x512_d1_w32) (broadcast S1024x512 (Scalar.muli a1 512#32)))
    (addi (iota .tc S1024x512 32 [0] iota_S1024x512_d0_w32) (broadcast S1024x512 (Scalar.muli a0 1024#32)))) natLt_1_32) : FVec Ideal S1024x512 .f32) (ix2 r q)

/-- One point adds, to row r of the output block, the masked entries of row r of the block's pair terms. -/
theorem pay1_apply (a0 a1 : BitVec 32) (v35 : FVec Ideal S1024x512 .f32) (v50 : Vec Ideal S1024x1 .f32) (r : Fin 1024) :
    k0_pay1 (F := Ideal) a0 a1 v35 v50 (ix2 r (0 : Fin 1)) = v50 (ix2 r (0 : Fin 1)) + ∑ q : Fin 512, maskVal a0 a1 r q * v35 (ix2 r q) := by
  unfold k0_pay1
  simp only [shapeCast_self]
  refine congrArg (v50 (ix2 r (0 : Fin 1)) + ·) ?_
  refine (shapeCast_a_a1_apply _ shapeCasts_S1024_S1024x1 r (0 : Fin 1)).trans ?_
  exact laneSum_apply _ _ r

/-- A one-bit word widened to 32 bits and read as a signed integer is the bit. -/
theorem bit_toInt : ∀ x : BitVec 1, ((x.setWidth 32).toInt : ℤ) = (x.toNat : ℤ) := by decide

/-- The mask entry is the 0/1 value of the comparison of the global column index with the global row index. -/
theorem maskVal_eq (a : Fin 8) (b : Fin 16) (r : Fin 1024) (q : Fin 512) :
    maskVal (BitVec.ofNat 32 a.val) (BitVec.ofNat 32 b.val) r q
      = FloatOps.uitofp (F := Ideal) .f32 (IntOp.cmpi .sge (BitVec.ofNat 32 (512 * b.val + q.val)) (BitVec.ofNat 32 (1024 * a.val + r.val))) := by
  have e1 : IntOp.addi (BitVec.ofNat 32 (0 * 512 + q.val)) (Scalar.muli (BitVec.ofNat 32 b.val) 512#32) = BitVec.ofNat 32 (512 * b.val + q.val) := by
    apply BitVec.eq_of_toNat_eq
    have hb := b.isLt; have hq := q.isLt
    simp only [IntOp.addi, Scalar.muli, IntOp.muli, BitVec.toNat_add, BitVec.toNat_mul, BitVec.toNat_ofNat]
    omega
  have e0 : IntOp.addi (BitVec.ofNat 32 (0 * 1024 + r.val)) (Scalar.muli (BitVec.ofNat 32 a.val) 1024#32) = BitVec.ofNat 32 (1024 * a.val + r.val) := by
    apply BitVec.eq_of_toNat_eq
    have ha := a.isLt; have hr := r.isLt
    simp only [IntOp.addi, Scalar.muli, IntOp.muli, BitVec.toNat_add, BitVec.toNat_mul, BitVec.toNat_ofNat]
    omega
  show ((((IntOp.cmpi .sge (IntOp.addi (BitVec.ofNat 32 (0 * 512 + q.val)) (Scalar.muli (BitVec.ofNat 32 b.val) 512#32))
      (IntOp.addi (BitVec.ofNat 32 (0 * 1024 + r.val)) (Scalar.muli (BitVec.ofNat 32 a.val) 1024#32))).setWidth 32).toInt : ℝ) : EReal) = (((IntOp.cmpi .sge (BitVec.ofNat 32 (512 * b.val + q.val)) (BitVec.ofNat 32 (1024 * a.val + r.val))).toNat : ℝ) : EReal)
  rw [e1, e0]
  have h := bit_toInt (IntOp.cmpi .sge (BitVec.ofNat 32 (512 * b.val + q.val)) (BitVec.ofNat 32 (1024 * a.val + r.val)))
  have h' : (((IntOp.cmpi .sge (BitVec.ofNat 32 (512 * b.val + q.val)) (BitVec.ofNat 32 (1024 * a.val + r.val))).setWidth 32).toInt : ℝ)
      = ((IntOp.cmpi .sge (BitVec.ofNat 32 (512 * b.val + q.val)) (BitVec.ofNat 32 (1024 * a.val + r.val))).toNat : ℝ) := by
    rw [h]; norm_cast
  rw [h']

/-- One point's step at the exact values: row r of the output block gains the block's masked pair terms. -/
theorem step_apply (i : grid0.Coords) (x0 : Vec Ideal S1024x512 .bf16) (x1 : Vec Ideal S512x512 .bf16) (x2 : Vec Ideal S1024x1 .f32) (x3 : Vec Ideal S1x512 .f32)
    (x4 : Vec Ideal S1024x1 .i32) (x5 : Vec Ideal S1x512 .i32) (xo : Vec Ideal S1024x1 .f32) (r : Fin 1024) :
    step (F := Ideal) i x0 x1 x2 x3 x4 x5 xo (ix2 r (0 : Fin 1))
      = xo (ix2 r (0 : Fin 1)) + ∑ q : Fin 512, maskVal (BitVec.ofNat 32 (i 0).val) (BitVec.ofNat 32 (i 1).val) r q * pairTerm x0 x1 x2 x3 x4 x5 r q := by
  unfold step
  rw [pay1_apply]
  exact congrArg (xo (ix2 r (0 : Fin 1)) + ·) (Finset.sum_congr rfl fun q _ => by rw [pay3_apply])

end Cert.KernelIdeal.Hand

end
-- ==== Proof.IAcc.lean ====
/-
  The row sums the kernel leaves in its output array.

  Point 16 a + b works on row block a and column block b. Within row block a the output block is reset at b = 0 and
  written back after b = 15, so what is written back for row r of the block is
      0 + contribution (16 a + 0) r + … + contribution (16 a + 15) r,
  the contribution of a point to a row being the sum of the masked pair terms over the point's 512 columns. The eight
  write-backs (one per row block) tile the 8192 x 1 output array, so the array ends holding, at row i, that sum for
  a = i / 1024 and r = i % 1024.
-/
import proofs.«158900_j3702261809485_1_alg».proof.Proof.ISum
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-- What point `t` adds to row `r` of its row block's running sums. -/
def contrib (c : Dev nD) (t : Fin cfg0.N) (r : Fin 1024) : EReal :=
  ∑ q : Fin 512, maskVal (BitVec.ofNat 32 (grid0.coords t 0).val) (BitVec.ofNat 32 (grid0.coords t 1).val) r q
    * pairTerm (iblk m c 0 t) (iblk m c 1 t) (iblk m c 2 t) (iblk m c 3 t) (iblk m c 4 t) (iblk m c 5 t) r q

/-- The same at a position that may lie outside the grid (zero there). -/
def contribN (c : Dev nD) (n : ℕ) (r : Fin 1024) : EReal :=
  if h : n < cfg0.N then contrib m c ⟨n, h⟩ r else 0

theorem contribN_of_lt (c : Dev nD) (n : ℕ) (h : n < cfg0.N) (r : Fin 1024) : contribN m c n r = contrib m c ⟨n, h⟩ r := dif_pos h

theorem outsAt_congr (c : Dev nD) {n n' : ℕ} (e : n = n') (h : n < cfg0.N) (h' : n' < cfg0.N) : outsAt m c n h = outsAt m c n' h' := by
  subst e; rfl

/-- At the first column block the running sum restarts from zero. -/
theorem outsAt_first (c : Dev nD) (t : Fin cfg0.N) (h0 : t.val % 16 = 0) (r : Fin 1024) :
    outsAt m c t.val t.isLt (ix2 r (0 : Fin 1)) = Ideal.ofBits .f32 0x00000000#32 + contrib m c t r := by
  rw [outsAt_reset m c t h0, outReset_eq]
  exact step_apply (grid0.coords t) (iblk m c 0 t) (iblk m c 1 t) (iblk m c 2 t) (iblk m c 3 t) (iblk m c 4 t) (iblk m c 5 t) (k0_pay2 (F := Ideal)) r

/-- At every other column block it grows by the point's contribution. -/
theorem outsAt_next (c : Dev nD) (t : Fin cfg0.N) (h0 : ¬t.val % 16 = 0) (r : Fin 1024) :
    outsAt m c t.val t.isLt (ix2 r (0 : Fin 1))
      = outsAt m c (t.val - 1) (Nat.lt_of_le_of_lt (Nat.sub_le _ _) t.isLt) (ix2 r (0 : Fin 1)) + contrib m c t r := by
  rw [outsAt_acc m c t h0, outAcc_eq]
  exact step_apply (grid0.coords t) (iblk m c 0 t) (iblk m c 1 t) (iblk m c 2 t) (iblk m c 3 t) (iblk m c 4 t) (iblk m c 5 t) _ r

/-- After column block k of row block a, row r holds zero plus the contributions of column blocks 0 … k. -/
theorem outsAt_sum (c : Dev nD) (a : ℕ) (ha : a < 8) (r : Fin 1024) :
    ∀ (k : ℕ) (hk : k < 16) (h : 16 * a + k < cfg0.N),
      outsAt m c (16 * a + k) h (ix2 r (0 : Fin 1)) = Ideal.ofBits .f32 0x00000000#32 + ∑ b ∈ Finset.range (k + 1), contribN m c (16 * a + b) r := by
  intro k
  induction k with
  | zero =>
    intro hk h
    have e := outsAt_first m c ⟨16 * a + 0, h⟩ (by show (16 * a + 0) % 16 = 0; omega) r
    rw [Finset.sum_range_one, contribN_of_lt m c _ h]
    exact e
  | succ k ih =>
    intro hk h
    have hN : cfg0.N = 128 := N_0
    have hprev : 16 * a + k < cfg0.N := by omega
    have e := outsAt_next m c ⟨16 * a + (k + 1), h⟩ (by show ¬(16 * a + (k + 1)) % 16 = 0; omega) r
    rw [Finset.sum_range_succ, contribN_of_lt m c _ h]
    refine e.trans ?_
    refine (congrArg (· + contrib m c ⟨16 * a + (k + 1), h⟩ r) (congrFun (outsAt_congr m c (by show 16 * a + (k + 1) - 1 = 16 * a + k; omega) _ hprev) _)).trans ?_
    refine (congrArg (· + contrib m c ⟨16 * a + (k + 1), h⟩ r) (ih (by omega) hprev)).trans ?_
    exact add_assoc _ _ _

/-! ## The final array -/

/-- Row i of the kernel's output array: zero plus the sixteen contributions of its row block's points. -/
def rowSums (c : Dev nD) : Buf (Elt Ideal) ((cfg0.win 6).arr.view.loc (c : Thread nD τ)) := fun i =>
  Ideal.ofBits .f32 0x00000000#32 + ∑ b ∈ Finset.range 16, contribN m c (16 * ((i 0).val / 1024) + b) ⟨(i 0).val % 1024, Nat.mod_lt _ (by decide)⟩

/-- The output window's block index over the grid: the row block of the point, column 0. -/
theorem out_index : ∀ t : Fin cfg0.N, win0_6.index t (0 : Fin 2) = t.val / 16 ∧ win0_6.index t (1 : Fin 2) = 0 :=
  (by decide +kernel : ∀ t : Fin grid0.N, win0_6.index t (0 : Fin 2) = t.val / 16 ∧ win0_6.index t (1 : Fin 2) = 0)

/-- What a write-back writes is the block of `rowSums` at the point's row block. -/
theorem flushed_eq (c : Dev nD) (t : Fin cfg0.N) (hf : (cfg0.win 6).flush t = true) :
    (dats m 0 c).flushed 6 t = ((cfg0.win 6).blk t).view.read (Elt Ideal) (rowSums m c) := by
  have h15 : t.val % 16 = 15 := (flush0_6 t).mp hf
  have hN : cfg0.N = 128 := N_0
  have htN : t.val < 128 := lt_of_lt_of_eq t.isLt hN
  obtain ⟨e0, e1⟩ := out_index t
  show (cfg0.win 6).cut (grid0.coords t) ((dats m 0 c).after 6 t) = _
  rw [after_out]
  funext y
  obtain ⟨r, u, rfl⟩ : ∃ (r : Fin 1024) (u : Fin 1), y = ix2 r u := ⟨y 0, y 1, eq_ix2 y⟩
  obtain rfl : u = 0 := Subsingleton.elim _ _
  have ht : t.val = 16 * (t.val / 16) + 15 := by omega
  have hlt : 16 * (t.val / 16) + 15 < cfg0.N := by omega
  have hs := outsAt_sum m c (t.val / 16) (by omega) r 15 (by omega) hlt
  have hcong := congrFun (outsAt_congr m c ht t.isLt hlt) (ix2 r (0 : Fin 1))
  show outsAt m c t.val t.isLt (ix2 r (0 : Fin 1)) = rowSums m c (((cfg0.win 6).blk t).view.emb (ix2 r (0 : Fin 1)))
  rw [hcong, hs]
  unfold rowSums
  have hemb : ((((cfg0.win 6).blk t).view.emb (ix2 r (0 : Fin 1))) 0).val = win0_6.index t (0 : Fin 2) * 1024 + 1 * r.val := rfl
  have hr := r.isLt
  have hdiv : ((((cfg0.win 6).blk t).view.emb (ix2 r (0 : Fin 1))) 0).val / 1024 = t.val / 16 := by rw [hemb, e0]; omega
  have hmod : ((((cfg0.win 6).blk t).view.emb (ix2 r (0 : Fin 1))) 0).val % 1024 = r.val := by rw [hemb, e0]; omega
  refine congrArg (Ideal.ofBits .f32 0x00000000#32 + ·) (Finset.sum_congr rfl fun b _ => ?_)
  have er : (⟨((((cfg0.win 6).blk t).view.emb (ix2 r (0 : Fin 1))) 0).val % 1024, Nat.mod_lt _ (by decide)⟩ : Fin 1024) = r := Fin.ext hmod
  rw [hdiv, er]

theorem mem_blk_out (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v10).slice (win0_6.rect t)).set ↔ _
  rw [View.set_slice_whole, Rect.mem_set_unit]
  exact Iff.rfl

/-- Every row of the output array is in the block some write-back writes. -/
theorem out_cover (c : Dev nD) (i : ((cfg0.win 6).arr.view.loc (c : Thread nD τ)).2.ty.Idx) :
    ∃ t : Fin cfg0.N, (cfg0.win 6).flush t = true ∧ i ∈ ((cfg0.win 6).blk t).view.set := by
  have hN : cfg0.N = 128 := N_0
  have hi0 : ((i : S8192x1.Idx) 0).val < 8192 := (i 0).isLt
  have hi1 : ((i : S8192x1.Idx) 1).val < 1 := (i 1).isLt
  refine ⟨⟨16 * (((i : S8192x1.Idx) 0).val / 1024) + 15, by omega⟩, (flush0_6 _).mpr (by show (16 * (((i : S8192x1.Idx) 0).val / 1024) + 15) % 16 = 15; omega), ?_⟩
  rw [mem_blk_out]
  obtain ⟨e0, e1⟩ := out_index ⟨16 * (((i : S8192x1.Idx) 0).val / 1024) + 15, by omega⟩
  intro a
  match a with
  | ⟨0, _⟩ =>
    show win0_6.index _ (0 : Fin 2) * 1024 ≤ ((i : S8192x1.Idx) 0).val ∧ ((i : S8192x1.Idx) 0).val < win0_6.index _ (0 : Fin 2) * 1024 + 1024
    rw [e0]; show (16 * (((i : S8192x1.Idx) 0).val / 1024) + 15) / 16 * 1024 ≤ _ ∧ _ < (16 * (((i : S8192x1.Idx) 0).val / 1024) + 15) / 16 * 1024 + 1024
    omega
  | ⟨1, _⟩ =>
    show win0_6.index _ (1 : Fin 2) * 1 ≤ ((i : S8192x1.Idx) 1).val ∧ ((i : S8192x1.Idx) 1).val < win0_6.index _ (1 : Fin 2) * 1 + 1
    rw [e1]; omega

/-- THE OUTPUT ARRAY after the region: the row sums. -/
theorem final_out (c : Dev nD) : (dats m 0 c).arrAt 6 cfg0.N = rowSums m c :=
  (dats m 0 c).arrAt_eq_of_cover 6 (rowSums m c) (fun t hf => flushed_eq m c t hf) (out_cover c)

end Cert.KernelIdeal.Hand

end
-- ==== Proof.IBlocks.lean ====
/-
  The kernel's windows read at an index, and the arrays they read as functions of the arguments.

  Point t = 16 a + b stages rows 1024 a … 1024 a + 1023 of the normalised matrix, of the squared row norms (as a
  column) and of the labels (as a column), and rows 512 b … 512 b + 511 of the normalised matrix, columns
  512 b … of the squared norms (as a row) and of the labels (as a row). The arrays themselves are what @main's host
  operations wrote before the region: the normalised matrix n = x / ‖x‖ (rounded to bf16, the identity at the exact
  values), its squared row norms ∑ₖ n i k · n i k reshaped to a column and to a row, and the labels reshaped likewise.
-/
import proofs.«158900_j3702261809485_1_alg».proof.Proof.IFrame
import proofs.«158900_j3702261809485_1_alg».proof.Proof.LibColumn
import proofs.«158900_j3702261809485_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo Cert.Lib.Column
open Idealize.ShloMosaic.Pipeline (Dat Cfg Window)

variable (m : (ℓ : Loc nD τ sig) → Buf (Elt Ideal) ℓ)

/-! ## The printed index maps over the grid -/

theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16
    ∧ (grid0.coords t 0).val = t.val / 16 ∧ (grid0.coords t 1).val = t.val % 16 :=
  (by decide +kernel : ∀ t : Fin grid0.N, _)

/-! ## A window's block at a local index is its array at the global index -/

theorem blk0_apply (c : Dev nD) (t : Fin cfg0.N) (r : Fin 1024) (k : Fin 512) (i : S8192x512.Idx)
    (h0 : (i 0).val = 1024 * (t.val / 16) + r.val) (h1 : (i 1).val = k.val) :
    iblk m c 0 t (ix2 r k) = V m c main_v3 i := by
  obtain ⟨e0, e1, -⟩ := idx_facts t
  show V m c main_v3 (((cfg0.win 0).blk t).view.emb (ix2 r k)) = V m c main_v3 i
  refine congrArg (V m c main_v3) (funext fun a => Fin.ext ?_)
  match a with
  | ⟨0, _⟩ => show win0_0.index t (0 : Fin 2) * 1024 + 1 * r.val = (i 0).val; omega
  | ⟨1, _⟩ => show win0_0.index t (1 : Fin 2) * 512 + 1 * k.val = (i 1).val; omega

theorem blk1_apply (c : Dev nD) (t : Fin cfg0.N) (q : Fin 512) (k : Fin 512) (i : S8192x512.Idx)
    (h0 : (i 0).val = 512 * (t.val % 16) + q.val) (h1 : (i 1).val = k.val) :
    iblk m c 1 t (ix2 q k) = V m c main_v3 i := by
  obtain ⟨-, -, e0, e1, -⟩ := idx_facts t
  show V m c main_v3 (((cfg0.win 1).blk t).view.emb (ix2 q k)) = V m c main_v3 i
  refine congrArg (V m c main_v3) (funext fun a => Fin.ext ?_)
  match a with
  | ⟨0, _⟩ => show win0_1.index t (0 : Fin 2) * 512 + 1 * q.val = (i 0).val; omega
  | ⟨1, _⟩ => show win0_1.index t (1 : Fin 2) * 512 + 1 * k.val = (i 1).val; omega

theorem blk2_apply (c : Dev nD) (t : Fin cfg0.N) (r : Fin 1024) (i : S8192x1.Idx)
    (h0 : (i 0).val = 1024 * (t.val / 16) + r.val) :
    iblk m c 2 t (ix2 r (0 : Fin 1)) = V m c main_v6 i := by
  obtain ⟨-, -, -, -, e0, e1, -⟩ := idx_facts t
  have hi1 : (i 1).val = 0 := by have h1 : (i 1).val < 1 := (i 1).isLt; omega
  show V m c main_v6 (((cfg0.win 2).blk t).view.emb (ix2 r (0 : Fin 1))) = V m c main_v6 i
  refine congrArg (V m c main_v6) (funext fun a => Fin.ext ?_)
  match a with
  | ⟨0, _⟩ => show win0_2.index t (0 : Fin 2) * 1024 + 1 * r.val = (i 0).val; omega
  | ⟨1, _⟩ => show win0_2.index t (1 : Fin 2) * 1 + 1 * 0 = (i 1).val; omega

theorem blk3_apply (c : Dev nD) (t : Fin cfg0.N) (q : Fin 512) (i : S1x8192.Idx)
    (h1 : (i 1).val = 512 * (t.val % 16) + q.val) :
    iblk m c 3 t (ix2 (0 : Fin 1) q) = V m c main_v7 i := by
  obtain ⟨-, -, -, -, -, -, e0, e1, -⟩ := idx_facts t
  have hi0 : (i 0).val = 0 := by have h1 : (i 0).val < 1 := (i 0).isLt; omega
  show V m c main_v7 (((cfg0.win 3).blk t).view.emb (ix2 (0 : Fin 1) q)) = V m c main_v7 i
  refine congrArg (V m c main_v7) (funext fun a => Fin.ext ?_)
  match a with
  | ⟨0, _⟩ => show win0_3.index t (0 : Fin 2) * 1 + 1 * 0 = (i 0).val; omega
  | ⟨1, _⟩ => show win0_3.index t (1 : Fin 2) * 512 + 1 * q.val = (i 1).val; omega

theorem blk4_apply (c : Dev nD) (t : Fin cfg0.N) (r : Fin 1024) (i : S8192x1.Idx)
    (h0 : (i 0).val = 1024 * (t.val / 16) + r.val) :
    iblk m c 4 t (ix2 r (0 : Fin 1)) = V m c main_v8 i := by
  obtain ⟨-, -, -, -, -, -, -, -, e0, e1, -⟩ := idx_facts t
  have hi1 : (i 1).val = 0 := by have h1 : (i 1).val < 1 := (i 1).isLt; omega
  show V m c main_v8 (((cfg0.win 4).blk t).view.emb (ix2 r (0 : Fin 1))) = V m c main_v8 i
  refine congrArg (V m c main_v8) (funext fun a => Fin.ext ?_)
  match a with
  | ⟨0, _⟩ => show win0_4.index t (0 : Fin 2) * 1024 + 1 * r.val = (i 0).val; omega
  | ⟨1, _⟩ => show win0_4.index t (1 : Fin 2) * 1 + 1 * 0 = (i 1).val; omega

theorem blk5_apply (c : Dev nD) (t : Fin cfg0.N) (q : Fin 512) (i : S1x8192.Idx)
    (h1 : (i 1).val = 512 * (t.val % 16) + q.val) :
    iblk m c 5 t (ix2 (0 : Fin 1) q) = V m c main_v9 i := by
  obtain ⟨-, -, -, -, -, -, -, -, -, -, e0, e1, -⟩ := idx_facts t
  have hi0 : (i 0).val = 0 := by have h1 : (i 0).val < 1 := (i 0).isLt; omega
  show V m c main_v9 (((cfg0.win 5).blk t).view.emb (ix2 (0 : Fin 1) q)) = V m c main_v9 i
  refine congrArg (V m c main_v9) (funext fun a => Fin.ext ?_)
  match a with
  | ⟨0, _⟩ => show win0_5.index t (0 : Fin 2) * 1 + 1 * 0 = (i 0).val; omega
  | ⟨1, _⟩ => show win0_5.index t (1 : Fin 2) * 512 + 1 * q.val = (i 1).val; omega

/-! ## The staged arrays as functions of the arguments -/

/-- The normalised matrix, as the reference's run names it. -/
abbrev nrm (c : Dev nD) : S8192x512.Idx → EReal := Cert.ReferenceIdeal.Read.val_main_v2 (F := Ideal) (m ((c : Thread nD τ).loc main_arg0))
/-- Its squared row norms. -/
abbrev sqn (c : Dev nD) : S8192.Idx → EReal := Cert.ReferenceIdeal.Read.val_main_v4 (F := Ideal) (m ((c : Thread nD τ).loc main_arg0))

theorem V_v3 (c : Dev nD) : (V m c main_v3 : S8192x512.Idx → EReal) = nrm m c := by
  show StableHlo.after hostOps0_1 (StableHlo.after hostOps0 (V₀ m c)) (Proc.devRef .tc main_v3) = _
  after_results
  rfl

theorem V_v6 (c : Dev nD) : (V m c main_v6 : S8192x1.Idx → EReal) = shapeCast S8192x1 (sqn m c) shapeCasts_S8192_S8192x1 := by
  show StableHlo.after hostOps0_1 (StableHlo.after hostOps0 (V₀ m c)) (Proc.devRef .tc main_v6) = _
  after_results
  rfl

theorem V_v7 (c : Dev nD) : (V m c main_v7 : S1x8192.Idx → EReal) = shapeCast S1x8192 (sqn m c) shapeCasts_S8192_S1x8192 := by
  show StableHlo.after hostOps0_1 (StableHlo.after hostOps0 (V₀ m c)) (Proc.devRef .tc main_v7) = _
  after_results
  rfl

theorem V_v8 (c : Dev nD) : (V m c main_v8 : S8192x1.Idx → BitVec 32) = shapeCast S8192x1 (m ((c : Thread nD τ).loc main_arg1)) shapeCasts_S8192_S8192x1 := by
  show StableHlo.after hostOps0_1 (StableHlo.after hostOps0 (V₀ m c)) (Proc.devRef .tc main_v8) = _
  after_results
  rfl

theorem V_v9 (c : Dev nD) : (V m c main_v9 : S1x8192.Idx → BitVec 32) = shapeCast S1x8192 (m ((c : Thread nD τ).loc main_arg1)) shapeCasts_S8192_S1x8192 := by
  show StableHlo.after hostOps0_1 (StableHlo.after hostOps0 (V₀ m c)) (Proc.devRef .tc main_v9) = _
  after_results
  rfl

end Cert.KernelIdeal.Hand

end
-- ==== Proof.PairSpec.lean ====
/-
  The cell of the pair matrix, as one function of the normalised matrix n, its squared row norms s and the labels y:

      cell i j = [j ≥ i] · (0.3 + σ · max (1.2 − ((s i + s j) − 2 · ∑ₖ n i k · n j k), 0)),    σ = 1 if y i = y j, else −1,

  over the extended reals, the constants being the exact values of the program's float literals. Both programs
  compute the sum of all 8192 x 8192 cells, scaled.
-/
import Idealize.ShloMosaic.PureOps.Ideal
import Idealize.ShloMosaic.Lib.ValueIdx

noncomputable section

namespace Cert.PairSpec

open Idealize.ShloMosaic Idealize.ShloMosaic.ValueIdx

def cell (n : (⟨2, ![8192, 512]⟩ : Shape).Idx → EReal) (s : (⟨1, ![8192]⟩ : Shape).Idx → EReal) (y : (⟨1, ![8192]⟩ : Shape).Idx → BitVec 32)
    (i j : Fin 8192) : EReal :=
  FloatOps.uitofp (F := Ideal) .f32 (IntOp.cmpi .sge (BitVec.ofNat 32 j.val) (BitVec.ofNat 32 i.val))
    * (Ideal.ofBits .f32 0x3E99999A#32
        + Scalar.select (IntOp.cmpi .eq (y (ix1 i)) (y (ix1 j))) (Ideal.ofBits .f32 0x3F800000#32) (Ideal.ofBits .f32 0xBF800000#32)
          * max (Ideal.ofBits .f32 0x3F99999A#32
              - ((s (ix1 i) + s (ix1 j)) - Ideal.ofBits .f32 0x40000000#32 * ∑ k : Fin 512, n (ix2 i k) * n (ix2 j k)))
            (Ideal.ofBits .f32 0x00000000#32))

end Cert.PairSpec

end
-- ==== Proof.ICell.lean ====
/-
  The kernel's masked pair term at local (r, q) of point t = 16 a + b is the cell (1024 a + r, 512 b + q) of the pair
  matrix: each block entry is the staged array's entry at the global index, the staged arrays are the normalised
  matrix, its squared norms and the labels, and the mask is the comparison of the two global indices.
-/
import proofs.«158900_j3702261809485_1_alg».proof.Proof.ISum
import proofs.«158900_j3702261809485_1_alg».proof.Proof.IBlocks
import proofs.«158900_j3702261809485_1_alg».proof.Proof.PairSpec

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Cert.Lib.Column Cert.PairSpec

variable (m : (ℓ : Loc nD τ sig) → Buf (Elt Ideal) ℓ)

/-- The global row of local row r at point t, -/
abbrev gRow (t : Fin cfg0.N) (r : Fin 1024) : Fin 8192 :=
  ⟨1024 * (t.val / 16) + r.val, by have hN : cfg0.N = 128 := N_0; have := t.isLt; have := r.isLt; omega⟩
/-- and the global column of local column q. -/
abbrev gCol (t : Fin cfg0.N) (q : Fin 512) : Fin 8192 :=
  ⟨512 * (t.val % 16) + q.val, by have := q.isLt; omega⟩

theorem rd0 (c : Dev nD) (t : Fin cfg0.N) (r : Fin 1024) (k : Fin 512) : iblk m c 0 t (ix2 r k) = nrm m c (ix2 (gRow t r) k) :=
  (blk0_apply m c t r k (ix2 (gRow t r) k) rfl rfl).trans (congrFun (V_v3 m c) _)
theorem rd1 (c : Dev nD) (t : Fin cfg0.N) (q : Fin 512) (k : Fin 512) : iblk m c 1 t (ix2 q k) = nrm m c (ix2 (gCol t q) k) :=
  (blk1_apply m c t q k (ix2 (gCol t q) k) rfl rfl).trans (congrFun (V_v3 m c) _)
theorem rd2 (c : Dev nD) (t : Fin cfg0.N) (r : Fin 1024) : iblk m c 2 t (ix2 r (0 : Fin 1)) = sqn m c (ix1 (gRow t r)) :=
  (blk2_apply m c t r (ix2 (gRow t r) (0 : Fin 1)) rfl).trans ((congrFun (V_v6 m c) _).trans (shapeCast_a_a1_apply _ _ (gRow t r) (0 : Fin 1)))
theorem rd3 (c : Dev nD) (t : Fin cfg0.N) (q : Fin 512) : iblk m c 3 t (ix2 (0 : Fin 1) q) = sqn m c (ix1 (gCol t q)) :=
  (blk3_apply m c t q (ix2 (0 : Fin 1) (gCol t q)) rfl).trans ((congrFun (V_v7 m c) _).trans (shapeCast_a_1a_apply _ _ (0 : Fin 1) (gCol t q)))
theorem rd4 (c : Dev nD) (t : Fin cfg0.N) (r : Fin 1024) : iblk m c 4 t (ix2 r (0 : Fin 1)) = m ((c : Thread nD τ).loc main_arg1) (ix1 (gRow t r)) :=
  (blk4_apply m c t r (ix2 (gRow t r) (0 : Fin 1)) rfl).trans ((congrFun (V_v8 m c) _).trans (shapeCast_a_a1_apply _ _ (gRow t r) (0 : Fin 1)))
theorem rd5 (c : Dev nD) (t : Fin cfg0.N) (q : Fin 512) : iblk m c 5 t (ix2 (0 : Fin 1) q) = m ((c : Thread nD τ).loc main_arg1) (ix1 (gCol t q)) :=
  (blk5_apply m c t q (ix2 (0 : Fin 1) (gCol t q)) rfl).trans ((congrFun (V_v9 m c) _).trans (shapeCast_a_1a_apply _ _ (0 : Fin 1) (gCol t q)))

/-- The masked pair term of the point is the pair matrix's cell. -/
theorem masked_pair_eq (c : Dev nD) (t : Fin cfg0.N) (r : Fin 1024) (q : Fin 512) :
    maskVal (BitVec.ofNat 32 (grid0.coords t 0).val) (BitVec.ofNat 32 (grid0.coords t 1).val) r q
        * pairTerm (iblk m c 0 t) (iblk m c 1 t) (iblk m c 2 t) (iblk m c 3 t) (iblk m c 4 t) (iblk m c 5 t) r q
      = cell (nrm m c) (sqn m c) (m ((c : Thread nD τ).loc main_arg1)) (gRow t r) (gCol t q) := by
  obtain ⟨-, -, -, -, -, -, -, -, -, -, -, -, ec0, ec1⟩ := idx_facts t
  have hN : cfg0.N = 128 := N_0
  have htN := t.isLt
  rw [ec0, ec1]
  have hm := maskVal_eq ⟨t.val / 16, by omega⟩ ⟨t.val % 16, by omega⟩ r q
  unfold pairTerm cell
  rw [rd2, rd3, rd4, rd5]
  refine congrArg₂ (· * ·) hm ?_
  refine congrArg (fun S => Ideal.ofBits .f32 0x3E99999A#32
        + Scalar.select (IntOp.cmpi .eq (m ((c : Thread nD τ).loc main_arg1) (ix1 (gRow t r))) (m ((c : Thread nD τ).loc main_arg1) (ix1 (gCol t q)))) (Ideal.ofBits .f32 0x3F800000#32) (Ideal.ofBits .f32 0xBF800000#32)
          * max (Ideal.ofBits .f32 0x3F99999A#32
              - ((sqn m c (ix1 (gRow t r)) + sqn m c (ix1 (gCol t q))) - Ideal.ofBits .f32 0x40000000#32 * S))
            (Ideal.ofBits .f32 0x00000000#32)) ?_
  exact Finset.sum_congr rfl fun k _ => by rw [rd0, rd1]

end Cert.KernelIdeal.Hand

end
-- ==== Proof.LibSumAlgebra.lean ====
/-
  Sum algebra on the extended reals (and on any additive commutative monoid) used to join a
  tiled sum to a whole-matrix sum.

  Two facts, neither of which needs any finiteness:

  * n equal summands t * c with n * c = 1 add up to t, for EVERY extended real t (also the two
    infinities): a sum of n equal terms is n • (t * c) = (n : EReal) * (t * c), and
    multiplication on the extended reals is commutative and associative, so this is
    t * (n * c) = t * 1.  No distributivity is used.

  * a sum over an index range of length m * n is the sum over its m consecutive blocks of
    length n of the sums over each block; twice, for a matrix cut into square tiles.  This holds
    in any additive commutative monoid, because a finite sum may be reindexed along a bijection
    and the order of two finite sums may be exchanged.
-/
import Idealize.ShloMosaic.PureOps.Ideal

noncomputable section

namespace Cert.LibSumAlgebra

open scoped BigOperators

/-! ## Equal summands whose scale undoes their number -/

/-- Over a finite index type ι, the constant summand t * c adds up to t as soon as
    (card ι) * c = 1 in the extended reals.  True for every t, the infinities included:
    only commutativity and associativity of the product are used. -/
theorem sum_const_mul_eq {ι : Type*} [Fintype ι] (t c : EReal)
    (h : ((Fintype.card ι : ℕ) : EReal) * c = 1) :
    ∑ _i : ι, t * c = t := by
  rw [Finset.sum_const, Finset.card_univ, EReal.nsmul_eq_mul, mul_left_comm, h, mul_one]

/-- The same over two nested finite sums: card ι * card κ equal summands. -/
theorem sum_sum_const_mul_eq {ι κ : Type*} [Fintype ι] [Fintype κ] (t c : EReal)
    (h : (((Fintype.card ι * Fintype.card κ : ℕ)) : EReal) * c = 1) :
    ∑ _i : ι, ∑ _j : κ, t * c = t := by
  rw [← Finset.sum_product', Finset.univ_product_univ]
  exact sum_const_mul_eq (ι := ι × κ) t c (by rw [Fintype.card_prod]; exact h)

/-- 1024 * 2^(-10) = 1 in the extended reals. -/
theorem nat1024_mul_two_pow_neg_ten :
    ((1024 : ℕ) : EReal) * (((2 : ℝ) ^ (-10 : Int) : ℝ) : EReal) = 1 := by
  have h : ((1024 : ℕ) : EReal) = ((1024 : ℝ) : EReal) := by norm_cast
  rw [h, ← EReal.coe_mul]
  norm_num

/-- 1024 copies of t * 2^(-10), indexed by Fin 1024, add up to t. -/
theorem sum_fin1024_mul_two_pow_neg_ten (t : EReal) :
    ∑ _i : Fin 1024, t * (((2 : ℝ) ^ (-10 : Int) : ℝ) : EReal) = t :=
  sum_const_mul_eq t _ (by rw [Fintype.card_fin]; exact nat1024_mul_two_pow_neg_ten)

/-- 8 × 128 copies of t * 2^(-10), as two nested sums, add up to t. -/
theorem sum_fin8_fin128_mul_two_pow_neg_ten (t : EReal) :
    ∑ _p : Fin 8, ∑ _q : Fin 128, t * (((2 : ℝ) ^ (-10 : Int) : ℝ) : EReal) = t :=
  sum_sum_const_mul_eq t _ (by
    rw [Fintype.card_fin, Fintype.card_fin]; exact nat1024_mul_two_pow_neg_ten)

/-! ## A sum over a range as the sum over its consecutive blocks -/

/-- Position r of block b, of m blocks of length n, lies in the range of length m * n. -/
theorem block_lt {m n : ℕ} (b : Fin m) (r : Fin n) : b.val * n + r.val < m * n := by
  have h1 : b.val * n + r.val < (b.val + 1) * n := by
    rw [Nat.add_mul, Nat.one_mul]; exact Nat.add_lt_add_left r.isLt _
  exact lt_of_lt_of_le h1 (Nat.mul_le_mul_right n b.isLt)

variable {M : Type*} [AddCommMonoid M]

/-- A sum over Fin (m * n) is the sum over the m blocks of the sum over each block's n
    positions: position r of block b is the index b * n + r. -/
theorem sum_blocks (m n : ℕ) (g : Fin (m * n) → M) :
    ∑ b : Fin m, ∑ r : Fin n, g ⟨b.val * n + r.val, block_lt b r⟩ = ∑ i : Fin (m * n), g i := by
  rw [← Finset.sum_product', Finset.univ_product_univ]
  refine Fintype.sum_equiv finProdFinEquiv _ _ (fun x => ?_)
  refine congrArg g (Fin.ext ?_)
  show x.1.val * n + x.2.val = x.2.val + n * x.1.val
  rw [Nat.mul_comm, Nat.add_comm]

/-- The same for the literal sizes of a range of 4096 cut into 8 blocks of 512. -/
theorem sum_blocks_8_512 (g : Fin 4096 → M) :
    ∑ b : Fin 8, ∑ r : Fin 512, g ⟨b.val * 512 + r.val, block_lt (m := 8) (n := 512) b r⟩
      = ∑ i : Fin 4096, g i :=
  sum_blocks 8 512 g

/-- A 4096 × 4096 matrix summed tile by tile over its 8 × 8 grid of 512 × 512 tiles is the
    sum of all its entries: entry (r, c) of tile (bi, bj) is entry
    (bi * 512 + r, bj * 512 + c) of the matrix. -/
theorem sum_tiles_8_512 (f : Fin 4096 → Fin 4096 → M) :
    ∑ bi : Fin 8, ∑ bj : Fin 8, ∑ r : Fin 512, ∑ c : Fin 512,
        f ⟨bi.val * 512 + r.val, block_lt (m := 8) (n := 512) bi r⟩
          ⟨bj.val * 512 + c.val, block_lt (m := 8) (n := 512) bj c⟩
      = ∑ i : Fin 4096, ∑ j : Fin 4096, f i j := by
  rw [← sum_blocks_8_512 (fun i => ∑ j : Fin 4096, f i j)]
  refine Finset.sum_congr rfl fun bi _ => ?_
  rw [Finset.sum_comm]
  refine Finset.sum_congr rfl fun r _ => ?_
  exact sum_blocks_8_512 (fun j => f ⟨bi.val * 512 + r.val, block_lt (m := 8) (n := 512) bi r⟩ j)

end Cert.LibSumAlgebra

end
-- ==== Proof.IFinal.lean ====
/-
  The kernel's result: the scaled sum of all cells of the pair matrix.

  Row i of the output array is zero plus, over its row block's sixteen points, each point's 512 masked pair terms,
  which are the cells (i, 512 b + q): sixteen consecutive blocks of 512 columns, so all 8192 cells of row i. The
  operations after the region sum the 8192 rows (from a zero) and scale the total.
-/
import proofs.«158900_j3702261809485_1_alg».proof.Proof.ILaunch
import proofs.«158900_j3702261809485_1_alg».proof.Proof.IAcc
import proofs.«158900_j3702261809485_1_alg».proof.Proof.ICell
import proofs.«158900_j3702261809485_1_alg».proof.Proof.LibSumAlgebra

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo Cert.PairSpec

variable (m : (ℓ : Loc nD τ sig) → Buf (Elt Ideal) ℓ)

/-- The labels, as the cell reads them. -/
abbrev lab (c : Dev nD) : S8192.Idx → BitVec 32 := m ((c : Thread nD τ).loc main_arg1)

/-- A contribution of a point of row block a, column block b, to the row of global index i: the cells (i, 512 b + q). -/
theorem contrib_eq (c : Dev nD) (i : Fin 8192) (b : Fin 16) (h : 16 * (i.val / 1024) + b.val < cfg0.N) :
    contrib m c ⟨16 * (i.val / 1024) + b.val, h⟩ ⟨i.val % 1024, Nat.mod_lt _ (by decide)⟩
      = ∑ q : Fin 512, cell (nrm m c) (sqn m c) (lab m c) i ⟨b.val * 512 + q.val, Cert.LibSumAlgebra.block_lt (m := 16) (n := 512) b q⟩ := by
  unfold contrib
  refine Finset.sum_congr rfl fun q _ => ?_
  rw [masked_pair_eq]
  have hi := i.isLt; have hb := b.isLt; have hq := q.isLt
  have e1 : gRow ⟨16 * (i.val / 1024) + b.val, h⟩ ⟨i.val % 1024, Nat.mod_lt _ (by decide)⟩ = i :=
    Fin.ext (by show 1024 * ((16 * (i.val / 1024) + b.val) / 16) + i.val % 1024 = i.val; omega)
  have e2 : gCol ⟨16 * (i.val / 1024) + b.val, h⟩ q = ⟨b.val * 512 + q.val, Cert.LibSumAlgebra.block_lt (m := 16) (n := 512) b q⟩ :=
    Fin.ext (by show 512 * ((16 * (i.val / 1024) + b.val) % 16) + q.val = b.val * 512 + q.val; omega)
  rw [e1, e2]

/-- Row i of the output array: zero plus the 8192 cells of row i. -/
theorem rowSums_eq (c : Dev nD) (i : Fin 8192) :
    rowSums m c (ix2 i (0 : Fin 1)) = Ideal.ofBits .f32 0x00000000#32 + ∑ j : Fin 8192, cell (nrm m c) (sqn m c) (lab m c) i j := by
  have hN : cfg0.N = 128 := N_0
  have hi := i.isLt
  unfold rowSums
  refine congrArg (Ideal.ofBits .f32 0x00000000#32 + ·) ?_
  show ∑ b ∈ Finset.range 16, contribN m c (16 * (i.val / 1024) + b) ⟨i.val % 1024, Nat.mod_lt _ (by decide)⟩ = _
  rw [Finset.sum_range (fun b => contribN m c (16 * (i.val / 1024) + b) ⟨i.val % 1024, Nat.mod_lt _ (by decide)⟩)]
  refine Eq.trans ?_ (Cert.LibSumAlgebra.sum_blocks 16 512 (fun j : Fin (16 * 512) => cell (nrm m c) (sqn m c) (lab m c) i j))
  refine Finset.sum_congr rfl fun b _ => ?_
  have hb := b.isLt
  have hlt : 16 * (i.val / 1024) + b.val < cfg0.N := by omega
  rw [contribN_of_lt m c _ hlt]
  exact contrib_eq m c i b hlt

/-- The host's sum of a column array to a scalar, at the exact values. -/
theorem colSum_total (y0 : S8192x1.Idx → EReal) (init : S_.Idx → EReal) (j : S_.Idx) :
    Host.reduceAdd (F := Ideal) (φ := .f32) y0 init reducesTo_S8192x1_S_d0_1 h_S_ j = init (Shape.Idx.first h_S_) + ∑ i : S8192x1.Idx, y0 i := by
  simp only [Host.reduceAdd, Ideal.hostReduceAdd_def]
  exact Ideal.hostReduceAdd_total reducesTo_S8192x1_S_d0_1 (fun b => b.elim0) y0 _ j

/-- The sum over the column array's indices is the sum over its rows. -/
theorem sum_col (f : S8192x1.Idx → EReal) : ∑ i : S8192x1.Idx, f i = ∑ a : Fin 8192, f (ix2 a (0 : Fin 1)) := by
  rw [sum_idx2]
  exact Finset.sum_congr rfl fun a _ => Fin.sum_univ_one _

/-- The result as the tail computes it from the row-sum array. -/
theorem result_term (c : Dev nD) :
    result m c = mulf (constant (F := Ideal) S_ .f32 0x32800400#32)
      (Host.reduceAdd (F := Ideal) (φ := .f32) (rowSums m c) (constant (F := Ideal) S_ .f32 0x00000000#32) reducesTo_S8192x1_S_d0_1 h_S_) := by
  have hv : Vt m c (Proc.devRef .tc main_v10) = rowSums m c := by
    unfold Vt; rw [Function.update_self]; exact final_out m c
  unfold result
  after_results
  rw [hv]

/-- THE KERNEL'S RESULT: the scale times (zero plus the sum over the rows of zero plus the row's cells). -/
theorem result_apply (c : Dev nD) (j : S_.Idx) :
    result m c j = Ideal.ofBits .f32 0x32800400#32
      * (Ideal.ofBits .f32 0x00000000#32 + ∑ a : Fin 8192, (Ideal.ofBits .f32 0x00000000#32 + ∑ b : Fin 8192, cell (nrm m c) (sqn m c) (lab m c) a b)) := by
  rw [result_term]
  show Ideal.ofBits .f32 0x32800400#32 * Host.reduceAdd (F := Ideal) (φ := .f32) (rowSums m c) (constant (F := Ideal) S_ .f32 0x00000000#32) reducesTo_S8192x1_S_d0_1 h_S_ j = _
  rw [colSum_total, sum_col]
  refine congrArg (Ideal.ofBits .f32 0x32800400#32 * ·) (congrArg (Ideal.ofBits .f32 0x00000000#32 + ·) ?_)
  exact Finset.sum_congr rfl fun a _ => rowSums_eq m c a

end Cert.KernelIdeal.Hand

end
-- ==== Proof.IRef.lean ====
/-
  The reference's cell: its product of the mask and the hinge term, read at (i, j) one operation at a time, is the
  shared cell of the normalised matrix, its squared norms and the labels.
-/
import proofs.«158900_j3702261809485_1_alg».proof.Proof.Gen.ReferenceIdeal.Read
import proofs.«158900_j3702261809485_1_alg».proof.Proof.PairSpec

set_option maxRecDepth 16384

noncomputable section

namespace Cert.ReferenceIdeal.RefValue

open Cert.ReferenceIdeal Cert.ReferenceIdeal.Read
open Idealize.ShloMosaic Idealize.ShloMosaic.ValueIdx Cert.PairSpec

variable (i j : Fin 8192)

theorem e_col : idx_main_v22 (idx_main_v24 (ix2 i j)) = ix1 j := funext fun a => Fin.ext (by match a with | ⟨0, _⟩ => rfl)
theorem e_row : idx_main_v23 (idx_main_v25 (ix2 i j)) = ix1 i := funext fun a => Fin.ext (by match a with | ⟨0, _⟩ => rfl)
theorem e_yrow : idx_main_v15 (idx_main_v17 (ix2 i j)) = ix1 i := funext fun a => Fin.ext (by match a with | ⟨0, _⟩ => rfl)
theorem e_ycol : idx_main_v16 (idx_main_v18 (ix2 i j)) = ix1 j := funext fun a => Fin.ext (by match a with | ⟨0, _⟩ => rfl)
theorem e_srow : idx_main_v7 (idx_main_v9 (ix2 i j)) = ix1 i := funext fun a => Fin.ext (by match a with | ⟨0, _⟩ => rfl)
theorem e_scol : idx_main_v8 (idx_main_v10 (ix2 i j)) = ix1 j := funext fun a => Fin.ext (by match a with | ⟨0, _⟩ => rfl)
theorem e_lhs (k : Fin 512) : lidx_main_v6 (ix2 i j) k = ix2 i k := funext fun a => Fin.ext (by match a with | ⟨0, _⟩ => rfl | ⟨1, _⟩ => rfl)
theorem e_rhs (k : Fin 512) : idx_main_v5 (ridx_main_v6 (ix2 i j) k) = ix2 j k := funext fun a => Fin.ext (by match a with | ⟨0, _⟩ => rfl | ⟨1, _⟩ => rfl)

/-- The reference's masked term at (i, j) is the cell. -/
theorem ref_cell (x0 : (⟨S8192x512, .f32⟩ : BufTy).Contents (Elt Ideal)) (x1 : (⟨S8192, .i32⟩ : BufTy).Contents (Elt Ideal)) :
    val_main_v36 (F := Ideal) x0 x1 (ix2 i j) = cell (val_main_v2 (F := Ideal) x0) (val_main_v4 (F := Ideal) x0) x1 i j := by
  simp only [val_main_v36_apply, val_main_v27_apply, val_main_v26_apply, val_main_v24_apply, val_main_v22_apply, val_main_v21_apply, val_main_v25_apply, val_main_v23_apply, val_main_v35_apply, val_main_v34_apply, val_main_cst_5_apply, val_main_v33_apply, val_main_v32_apply, val_main_v20_apply, val_main_v19_apply, val_main_v17_apply, val_main_v15_apply, val_main_v18_apply, val_main_v16_apply, val_main_call1_v0_apply, val_main_cst_1_apply, val_main_call1_v1_apply, val_main_cst_2_apply, val_main_v31_apply, val_main_v29_apply, val_main_v28_apply, val_main_cst_3_apply, val_main_v14_apply, val_main_v11_apply, val_main_v9_apply, val_main_v7_apply, val_main_v10_apply, val_main_v8_apply, val_main_v13_apply, val_main_v12_apply, val_main_cst_0_apply, val_main_v6_apply, val_main_v5_apply, val_main_v30_apply, val_main_cst_4_apply, e_col, e_row, e_yrow, e_ycol, e_srow, e_scol, e_lhs, e_rhs]
  rfl

end Cert.ReferenceIdeal.RefValue

end
-- ==== Proof.IJoin.lean ====
/-
  The two results are one extended real.

  The kernel's result is  κ · (0 + ∑ᵢ (0 + ∑ⱼ cell i j))  and the reference's  κ · (0 + ∑ᵢ ∑ⱼ cell i j),  with the same
  cells of the same normalised matrix, squared norms and labels and the same scale κ; the inner zeros add nothing.
  Only the neutrality of zero for the sum is used: no finiteness of the inputs.
-/
import proofs.«158900_j3702261809485_1_alg».proof.Proof.IFinal
import proofs.«158900_j3702261809485_1_alg».proof.Proof.IRef

set_option maxRecDepth 16384

noncomputable section

namespace Cert.ReferenceIdeal.RefValue

open Cert.ReferenceIdeal Cert.ReferenceIdeal.Read
open Idealize.ShloMosaic Idealize.ShloMosaic.ValueIdx Cert.PairSpec

/-- The reference's result: the scale times (zero plus the sum of all cells). -/
theorem ref_total (x0 : (⟨S8192x512, .f32⟩ : BufTy).Contents (Elt Ideal)) (x1 : (⟨S8192, .i32⟩ : BufTy).Contents (Elt Ideal)) (j : S_.Idx) :
    val_main_v38 (F := Ideal) x0 x1 j = Ideal.ofBits .f32 0x32800400#32
      * (Ideal.ofBits .f32 0x00000000#32 + ∑ a : Fin 8192, ∑ b : Fin 8192, cell (val_main_v2 (F := Ideal) x0) (val_main_v4 (F := Ideal) x0) x1 a b) := by
  rw [val_main_v38_apply, val_main_v37_apply, val_main_cst_7_apply, val_main_cst_6_apply, sum_idx2]
  refine congrArg (Ideal.ofBits .f32 0x32800400#32 * ·) (congrArg (Ideal.ofBits .f32 0x00000000#32 + ·) ?_)
  exact Finset.sum_congr rfl fun a _ => Finset.sum_congr rfl fun b _ => ref_cell a b x0 x1

end Cert.ReferenceIdeal.RefValue

namespace Cert.KernelIdeal.Hand

open Cert.KernelIdeal Cert.KernelIdeal.Gen
open Idealize.ShloMosaic Idealize.ShloMosaic.TcCoe Idealize.ShloMosaic.ValueIdx Idealize.SL.Sem Cert.PairSpec

variable (m : (ℓ : Loc nD τ sig) → Buf (Elt Ideal) ℓ)

/-- THE VALUE: the kernel's result is the reference's result term of the same arguments. -/
theorem value_eq (c : Dev nD) :
    (result m c : S_.Idx → EReal)
      = Cert.ReferenceIdeal.Read.val_main_v38 (F := Ideal) (m ((c : Thread nD τ).loc main_arg0)) (m ((c : Thread nD τ).loc main_arg1)) := by
  funext j
  rw [result_apply, Cert.ReferenceIdeal.RefValue.ref_total, Ideal.ofBits_zero_f32]
  simp only [zero_add]

end Cert.KernelIdeal.Hand

end
-- ==== Proof.lean ====
/-
  The certificate's five claims.

  Both kernel programs (the word-level one and its idealization, the same text) run to the end, fault nowhere and
  leave the two arguments as they were: the run of @main cut into its host stretches and the kernel region, the
  region's 128 points each by the body's symbolic run. The reference's frame is its run read back, with the result
  dropped. The idealization rewrote nothing. At the exact values the kernel's result — the scaled sum, over the rows,
  of the row sums it accumulates column block by column block — and the reference's — the scaled sum of the whole
  masked pair matrix — are the same extended real: the same cells, summed in another grouping.
-/
import proofs.«158900_j3702261809485_1_alg».proof.Defs
import proofs.«158900_j3702261809485_1_alg».proof.Proof.Gen.Kernel
import proofs.«158900_j3702261809485_1_alg».proof.Proof.Gen.KernelIdeal
import proofs.«158900_j3702261809485_1_alg».proof.Proof.Gen.ReferenceIdeal
import proofs.«158900_j3702261809485_1_alg».proof.Proof.Gen.ReferenceIdeal.Run
import proofs.«158900_j3702261809485_1_alg».proof.Proof.Gen.ReferenceIdeal.Read
import proofs.«158900_j3702261809485_1_alg».proof.Proof.Gen.Pre_finite_inputs
import proofs.«158900_j3702261809485_1_alg».proof.Proof.KLaunch
import proofs.«158900_j3702261809485_1_alg».proof.Proof.ILaunch
import proofs.«158900_j3702261809485_1_alg».proof.Proof.IJoin
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ =>
  (θ_run Cert.Kernel.defs _ _).mono (fun _ h c => ⟨(h c).2.1, (h c).2.2⟩) (Cert.Kernel.Hand.run_main (F := Bits) m ρ)

theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.result m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2]
  exact (Cert.KernelIdeal.Hand.value_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
